-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S100000x6 : Shape := ⟨2, ![100000, 6]⟩
abbrev S100000x11 : Shape := ⟨2, ![100000, 11]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S128x128 : Shape := ⟨2, ![128, 128]⟩
abbrev S2x128x128 : Shape := ⟨3, ![2, 128, 128]⟩
abbrev S128x2 : Shape := ⟨2, ![128, 2]⟩
abbrev S2 : Shape := ⟨1, ![2]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x6 : S_.BroadcastsInDim S100000x6 (![] : Fin 0 → Fin S100000x6.rank)
  reducesTo_S100000x6_S_d0_1 : S100000x6.ReducesTo [0, 1] S_
  bcast_S_S100000x11 : S_.BroadcastsInDim S100000x11 (![] : Fin 0 → Fin S100000x11.rank)
  reducesTo_S100000x11_S_d0_1 : S100000x11.ReducesTo [0, 1] S_
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x2 .f32) (main_arg16 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg15
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg16 main_v63 main_v67

def fn_part2 {F : FTy → Type} [FloatOps F] (main_arg9 : FVec F S128 .f32) (main_arg10 : FVec F S2x128x128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg10
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S768x128 .f32) (main_arg7 : FVec F S128 .f32) (main_arg8 : FVec F S128x128 .f32) (main_arg9 : FVec F S128 .f32) (main_arg10 : FVec F S2x128x128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) (main_v13 : IVec S_ 1) (main_v16 : IVec S100000x11 1) : IVec S_ 1 :=
  let main_c_5 : IVec S_ 1 := constantI S_ 1 1#1
  let main_v17 : IVec S_ 1 := (fun x v => Host.reduce IntOp.andi x v reducesTo_S100000x11_S_d0_1 h_S_) main_v16 main_c_5
  let main_v18 : IVec S_ 1 := andi main_v13 main_v17
  let main_v19 : FVec F S768x128 .f32 := Host.absf main_arg6
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x768 .f32) (main_arg1 : FVec F S100000x768 .f32) (main_arg2 : FVec F S100000x6 .f32) (main_arg3 : FVec F S100000x11 .f32) (main_arg4 : IVec S2x1600000 32) (main_arg5 : IVec S1600000 32) (main_arg6 : FVec F S768x128 .f32) (main_arg7 : FVec F S128 .f32) (main_arg8 : FVec F S128x128 .f32) (main_arg9 : FVec F S128 .f32) (main_arg10 : FVec F S2x128x128 .f32) (main_arg11 : FVec F S128x128 .f32) (main_arg12 : FVec F S128 .f32) (main_arg13 : FVec F S128x128 .f32) (main_arg14 : FVec F S128 .f32) (main_arg15 : FVec F S128x2 .f32) (main_arg16 : FVec F S2 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x768 .f32 := Host.absf main_arg1
  let main_cst_0 : FVec F S_ .f32 := constant S_ .f32 0x7F800000#32
  let main_v5 : FVec F S100000x768 .f32 := broadcastInDim S100000x768 ![] bcast_S_S100000x768 main_cst_0
  let main_v6 : IVec S100000x768 1 := cmpf .olt main_v4 main_v5
  let main_c_1 : IVec S_ 1 := constantI S_ 1 1#1
  let main_v7 : IVec S_ 1 := (fun x v => Host.reduce IntOp.andi x v reducesTo_S100000x768_S_d0_1 h_S_) main_v6 main_c_1
  let main_v8 : IVec S_ 1 := andi main_v3 main_v7
  let main_v9 : FVec F S100000x6 .f32 := Host.absf main_arg2
  let main_cst_2 : FVec F S_ .f32 := constant S_ .f32 0x7F800000#32
  let main_v10 : FVec F S100000x6 .f32 := broadcastInDim S100000x6 ![] bcast_S_S100000x6 main_cst_2
  let main_v11 : IVec S100000x6 1 := cmpf .olt main_v9 main_v10
  let main_c_3 : IVec S_ 1 := constantI S_ 1 1#1
  let main_v12 : IVec S_ 1 := (fun x v => Host.reduce IntOp.andi x v reducesTo_S100000x6_S_d0_1 h_S_) main_v11 main_c_3
  let main_v13 : IVec S_ 1 := andi main_v8 main_v12
  let main_v14 : FVec F S100000x11 .f32 := Host.absf main_arg3
  let main_cst_4 : FVec F S_ .f32 := constant S_ .f32 0x7F800000#32
  let main_v15 : FVec F S100000x11 .f32 := broadcastInDim S100000x11 ![] bcast_S_S100000x11 main_cst_4
  let main_v16 : IVec S100000x11 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x768 : Shape := ⟨2, ![100000, 768]⟩
abbrev S100000x6 : Shape := ⟨2, ![100000, 6]⟩
abbrev S100000x11 : Shape := ⟨2, ![100000, 11]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S128x128 : Shape := ⟨2, ![128, 128]⟩
abbrev S2x128x128 : Shape := ⟨3, ![2, 128, 128]⟩
abbrev S128x2 : Shape := ⟨2, ![128, 2]⟩
abbrev S2 : Shape := ⟨1, ![2]⟩
abbrev S1x1600000 : Shape := ⟨2, ![1, 1600000]⟩
abbrev S1x128 : Shape := ⟨2, ![1, 128]⟩
abbrev S100000x128 : Shape := ⟨2, ![100000, 128]⟩
abbrev S2000x768 : Shape := ⟨2, ![2000, 768]⟩
abbrev S2000x128 : Shape := ⟨2, ![2000, 128]⟩
abbrev S100000x256 : Shape := ⟨2, ![100000, 256]⟩
abbrev S2000x256 : Shape := ⟨2, ![2000, 256]⟩
abbrev S1x128x128 : Shape := ⟨3, ![1, 128, 128]⟩
abbrev S100000x2x128 : Shape := ⟨3, ![100000, 2, 128]⟩
abbrev S_ : Shape := ⟨0, ![]⟩
abbrev S100000x1x128 : Shape := ⟨3, ![100000, 1, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x2 : Shape := ⟨2, ![1, 2]⟩
abbrev S100000x2 : Shape := ⟨2, ![100000, 2]⟩
abbrev S2000x2 : Shape := ⟨2, ![2000, 2]⟩

abbrev nBuf : Space → Nat
  | .hbm => 167
  | .vmem => 34
  | .smem => 0
  | _ => 0

abbrev hbmTy0_0 (i : Nat) : BufTy := match i % 128 with
  | 0 => ⟨S100000x768, .f32⟩
  | 1 => ⟨S100000x768, .f32⟩
  | 2 => ⟨S100000x6, .f32⟩
  | 3 => ⟨S100000x11, .f32⟩
  | 4 => ⟨S2x1600000, .i32⟩
  | 5 => ⟨S1600000, .i32⟩
  | 6 => ⟨S768x128, .f32⟩
  | 7 => ⟨S128, .f32⟩
  | 8 => ⟨S128x128, .f32⟩
  | 9 => ⟨S128, .f32⟩
  | 10 => ⟨S2x128x128, .f32⟩
  | 11 => ⟨S128x128, .f32⟩
  | 12 => ⟨S128, .f32⟩
  | 13 => ⟨S128x128, .f32⟩
  | 14 => ⟨S128, .f32⟩
  | 15 => ⟨S128x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S1x128, .f32⟩
  | 22 => ⟨S1x128, .f32⟩
  | 23 => ⟨S100000x128, .f32⟩
  | 24 => ⟨S1x128, .f32⟩
  | 25 => ⟨S100000x128, .f32⟩
  | 26 => ⟨S100000x256, .f32⟩
  | 27 => ⟨S100000x2x128, .f32⟩
  | 28 => ⟨S_, .i32⟩
  | 29 => ⟨S1600000, .i32⟩
  | 30 => ⟨S1600000, .i1⟩
  | 31 => ⟨S1600000, .f32⟩
  | 32 => ⟨S100000x1x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S1600000x1, .f32⟩
  | 44 => ⟨S1600000x128, .f32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S100000, .f32⟩
  | 52 => ⟨S1600000x1, .i32⟩
  | 53 => ⟨S100000, .f32⟩
  | 54 => ⟨S_, .f32⟩
  | 55 => ⟨S100000, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S1600000, .f32⟩
  | 65 => ⟨S100000x1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x1, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S_, .f32⟩
  | 84 => ⟨S100000, .f32⟩
  | 85 => ⟨S1600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x256, .f32⟩
  | 97 => ⟨S100000x2x128, .f32⟩
  | 98 => ⟨S_, .i32⟩
  | 99 => ⟨S1600000, .i32⟩
  | 100 => ⟨S1600000, .i1⟩
  | 101 => ⟨S1600000, .f32⟩
  | 102 => ⟨S100000x1x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S1600000x1, .f32⟩
  | 114 => ⟨S1600000x128, .f32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S_, .f32⟩
  | 121 => ⟨S100000, .f32⟩
  | 122 => ⟨S1600000x1, .i32⟩
  | 123 => ⟨S100000, .f32⟩
  | 124 => ⟨S_, .f32⟩
  | 125 => ⟨S100000, .f32⟩
  | 126 => ⟨S100000, .f32⟩
  | 127 => ⟨S100000x1, .f32⟩
  | _ => ⟨S100000x768, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .i32⟩
  | 4 => ⟨S1600000, .i32⟩
  | 5 => ⟨S1600000, .i1⟩
  | 6 => ⟨S1600000, .f32⟩
  | 7 => ⟨S100000x1x128, .f32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S1600000x1, .f32⟩
  | 19 => ⟨S1600000x128, .f32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S100000x128, .f32⟩
  | 34 => ⟨S100000x128, .f32⟩
  | 35 => ⟨S100000x128, .f32⟩
  | 36 => ⟨S1x128, .f32⟩
  | 37 => ⟨S1x2, .f32⟩
  | 38 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S2x128x128, .f32⟩
  | .local _ .vmem, ⟨13, _⟩ => ⟨S2000x128, .f32⟩
  | .local _ .vmem, ⟨14, _⟩ => ⟨S2000x128, .f32⟩
  | .local _ .vmem, ⟨15, _⟩ => ⟨S2000x256, .f32⟩
  | .local _ .vmem, ⟨16, _⟩ => ⟨S2000x256, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S2x128x128, .f32⟩
  | .local _ .vmem, ⟨22, _⟩ => ⟨S2000x128, .f32⟩
  | .local _ .vmem, ⟨23, _⟩ => ⟨S2000x128, .f32⟩
  | .local _ .vmem, ⟨24, _⟩ => ⟨S2000x256, .f32⟩
  | .local _ .vmem, ⟨25, _⟩ => ⟨S2000x256, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S128x2, .f32⟩
  | .local _ .vmem, ⟨31, _⟩ => ⟨S1x2, .f32⟩
  | .local _ .vmem, ⟨32, _⟩ => ⟨S2000x2, .f32⟩
  | .local _ .vmem, ⟨33, _⟩ => ⟨S2000x2, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_0 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_5 : Ref sig .tc := ⟨.hbm, 67, rfl⟩
abbrev main_v42 : Ref sig .tc := ⟨.hbm, 68, rfl⟩
abbrev main_v43 : Ref sig .tc := ⟨.hbm, 69, rfl⟩
abbrev main_c_6 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65_0 : Ref sig .tc := ⟨.hbm, 95, rfl⟩
abbrev main_v65_1 : Ref sig .tc := ⟨.hbm, 96, rfl⟩
abbrev main_v66 : Ref sig .tc := ⟨.hbm, 97, rfl⟩
abbrev main_c_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_11 : Ref sig .tc := ⟨.hbm, 104, rfl⟩
abbrev main_v72 : Ref sig .tc := ⟨.hbm, 105, rfl⟩
abbrev main_v73 : Ref sig .tc := ⟨.hbm, 106, rfl⟩
abbrev main_c_12 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_14 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_16 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_17 : Ref sig .tc := ⟨.hbm, 137, rfl⟩
abbrev main_v99 : Ref sig .tc := ⟨.hbm, 138, rfl⟩
abbrev main_v100 : Ref sig .tc := ⟨.hbm, 139, rfl⟩
abbrev main_c_18 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_19 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_21 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x2 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2000x256_S2000x128_0_0 : ∀ a, (![0, 0] : Fin 2 → Nat) a + S2000x128.size a ≤ S2000x256.size a
  inb_S2x128x128_S1x128x128_1_0_0 : ∀ a, (![1, 0, 0] : Fin 3 → Nat) a + S1x128x128.size a ≤ S2x128x128.size a
  inb_S2000x256_S2000x128_0_128 : ∀ a, (![0, 128] : Fin 2 → Nat) a + S2000x128.size a ≤ S2000x256.size a
  shapeCasts_S100000x256_S100000x2x128 : S100000x256.ShapeCasts S100000x2x128
  bcast_S_S1600000 : S_.BroadcastsInDim S1600000 (![] : Fin 0 → Fin S1600000.rank)
  slices_S100000x2x128_S100000x1x128_0_0_0 : S100000x2x128.Slices ![0, 0, 0] S100000x1x128
  shapeCasts_S100000x1x128_S100000x128 : S100000x1x128.ShapeCasts S100000x128
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S100000x2x128_S100000x1x128_0_1_0 : S100000x2x128.Slices ![0, 1, 0] S100000x1x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  dot_S2000x768_S768x128_S2000x128_1_0_0_1_n_n_wf : DotDims.WF S2000x768 S768x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128x128.size a ≤ S2x128x128.size a
  hwx1_3 : ∀ i : grid1.Coords, EltTy.bits .f32 = 32 ∨ (Rect.block (s := S2x128x128) S2x128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x128x128.size a ≤ S2x128x128.size a
  hwx2_3 : ∀ i : grid2.Coords, EltTy.bits .f32 = 32 ∨ (Rect.block (s := S2x128x128) S2x128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S100000x256.size a
  hwx2_5 : ∀ i : grid2.Coords, EltTy.bits .f32 = 32 ∨ (Rect.block (s := S100000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x2.size a ≤ S100000x2.size a
  hwx3_5 : ∀ i : grid3.Coords, EltTy.bits .f32 = 32 ∨ (Rect.block (s := S100000x2) S2000x2.size (cc3_transform_5 i) (hinb3_5 i)).WholeWords (EltTy.packing .f32)

variable [Facts₀]

def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S2x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S2x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v65_1) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v120) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v121) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v123) S2000x2.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x768 : Shape := ⟨2, ![100000, 768]⟩
abbrev S100000x6 : Shape := ⟨2, ![100000, 6]⟩
abbrev S100000x11 : Shape := ⟨2, ![100000, 11]⟩
abbrev S2x1600000 : Shape := ⟨2, ![2, 1600000]⟩
abbrev S1600000 : Shape := ⟨1, ![1600000]⟩
abbrev S768x128 : Shape := ⟨2, ![768, 128]⟩
abbrev S128 : Shape := ⟨1, ![128]⟩
abbrev S128x128 : Shape := ⟨2, ![128, 128]⟩
abbrev S2x128x128 : Shape := ⟨3, ![2, 128, 128]⟩
abbrev S128x2 : Shape := ⟨2, ![128, 2]⟩
abbrev S2 : Shape := ⟨1, ![2]⟩
abbrev S1x1600000 : Shape := ⟨2, ![1, 1600000]⟩
abbrev S100000x128 : Shape := ⟨2, ![100000, 128]⟩
abbrev S1x128 : Shape := ⟨2, ![1, 128]⟩
abbrev S_ : Shape := ⟨0, ![]⟩
abbrev S1x128x128 : Shape := ⟨3, ![1, 128, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x2 : Shape := ⟨2, ![100000, 2]⟩
abbrev S1x2 : Shape := ⟨2, ![1, 2]⟩

abbrev nBuf : Space → Nat
  | .hbm => 202
  | .vmem => 0
  | .smem => 0
  | _ => 0

abbrev hbmTy0_0 (i : Nat) : BufTy := match i % 128 with
  | 0 => ⟨S100000x768, .f32⟩
  | 1 => ⟨S100000x768, .f32⟩
  | 2 => ⟨S100000x6, .f32⟩
  | 3 => ⟨S100000x11, .f32⟩
  | 4 => ⟨S2x1600000, .i32⟩
  | 5 => ⟨S1600000, .i32⟩
  | 6 => ⟨S768x128, .f32⟩
  | 7 => ⟨S128, .f32⟩
  | 8 => ⟨S128x128, .f32⟩
  | 9 => ⟨S128, .f32⟩
  | 10 => ⟨S2x128x128, .f32⟩
  | 11 => ⟨S128x128, .f32⟩
  | 12 => ⟨S128, .f32⟩
  | 13 => ⟨S128x128, .f32⟩
  | 14 => ⟨S128, .f32⟩
  | 15 => ⟨S128x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .i1⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .i1⟩
  | 39 => ⟨S_, .f32⟩
  | 40 => ⟨S100000x128, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .i32⟩
  | 48 => ⟨S1600000, .i32⟩
  | 49 => ⟨S1600000, .i1⟩
  | 50 => ⟨S1600000, .f32⟩
  | 51 => ⟨S1x128x128, .f32⟩
  | 52 => ⟨S128x128, .f32⟩
  | 53 => ⟨S100000x128, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x1, .f32⟩
  | 64 => ⟨S1600000x128, .f32⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S1600000, .f32⟩
  | 85 => ⟨S1x128x128, .f32⟩
  | 86 => ⟨S128x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x1, .f32⟩
  | 98 => ⟨S1600000x128, .f32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S_, .f32⟩
  | 105 => ⟨S100000, .f32⟩
  | 106 => ⟨S1600000x1, .i32⟩
  | 107 => ⟨S100000, .f32⟩
  | 108 => ⟨S_, .f32⟩
  | 109 => ⟨S100000, .f32⟩
  | 110 => ⟨S100000, .f32⟩
  | 111 => ⟨S100000x1, .f32⟩
  | 112 => ⟨S100000x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .i32⟩
  | 120 => ⟨S1600000, .i32⟩
  | 121 => ⟨S1600000, .i1⟩
  | 122 => ⟨S1600000, .f32⟩
  | 123 => ⟨S1x128x128, .f32⟩
  | 124 => ⟨S128x128, .f32⟩
  | 125 => ⟨S100000x128, .f32⟩
  | 126 => ⟨S_, .i32⟩
  | 127 => ⟨S1600000, .i32⟩
  | _ => ⟨S100000x768, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S1600000x1, .f32⟩
  | 8 => ⟨S1600000x128, .f32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000x1, .f32⟩
  | 22 => ⟨S100000x128, .f32⟩
  | 23 => ⟨S100000x128, .f32⟩
  | 24 => ⟨S100000x128, .f32⟩
  | 25 => ⟨S_, .i32⟩
  | 26 => ⟨S1600000, .i32⟩
  | 27 => ⟨S1600000, .i1⟩
  | 28 => ⟨S1600000, .f32⟩
  | 29 => ⟨S1x128x128, .f32⟩
  | 30 => ⟨S128x128, .f32⟩
  | 31 => ⟨S100000x128, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S1600000x1, .f32⟩
  | 42 => ⟨S1600000x128, .f32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S100000, .f32⟩
  | 55 => ⟨S100000x1, .f32⟩
  | 56 => ⟨S100000x128, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .i1⟩
  | 66 => ⟨S_, .f32⟩
  | 67 => ⟨S100000x128, .f32⟩
  | 68 => ⟨S100000x128, .f32⟩
  | 69 => ⟨S100000x128, .f32⟩
  | 70 => ⟨S100000x2, .f32⟩
  | 71 => ⟨S1x2, .f32⟩
  | 72 => ⟨S100000x2, .f32⟩
  | 73 => ⟨S100000x2, .f32⟩
  | _ => ⟨S100000x768, .f32⟩

abbrev hbmTy (i : Nat) : BufTy := match i / 128 with
  | 0 => hbmTy0_0 i
  | 1 => hbmTy0_1 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_9 : Ref sig .tc := ⟨.hbm, 88, rfl⟩
abbrev main_v60 : Ref sig .tc := ⟨.hbm, 89, rfl⟩
abbrev main_v61 : Ref sig .tc := ⟨.hbm, 90, rfl⟩
abbrev main_c_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_15 : Ref sig .tc := ⟨.hbm, 126, rfl⟩
abbrev main_v92 : Ref sig .tc := ⟨.hbm, 127, rfl⟩
abbrev main_v93 : Ref sig .tc := ⟨.hbm, 128, rfl⟩
abbrev main_c_16 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_17 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_18 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_19 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_20 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_21 : Ref sig .tc := ⟨.hbm, 160, rfl⟩
abbrev main_v120 : Ref sig .tc := ⟨.hbm, 161, rfl⟩
abbrev main_v121 : Ref sig .tc := ⟨.hbm, 162, rfl⟩
abbrev main_c_22 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_23 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_24 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_25 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_26 : Ref sig .tc := ⟨.hbm, 191, rfl⟩
abbrev main_v146 : Ref sig .tc := ⟨.hbm, 192, rfl⟩
abbrev main_v147 : Ref sig .tc := ⟨.hbm, 193, rfl⟩
abbrev main_cst_27 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  slices_S2x128x128_S1x128x128_0_0_0 : S2x128x128.Slices ![0, 0, 0] S1x128x128
  shapeCasts_S1x128x128_S128x128 : S1x128x128.ShapeCasts S128x128
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x768_S768x128_S100000x128_1_0_0_1_n_n_wf : DotDims.WF S100000x768 S768x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x2_S100000x2_1_0_0_1_n_n_wf : DotDims.WF S100000x128 S128x2 S100000x2 [1] [0] [0] [1] [] []

variable [Facts₀]

def dot_S100000x768_S768x128_S100000x128_1_0_0_1_n_n : DotDims S100000x768 S768x128 S100000x128 where
  lhsContracting := [1]
  rhsContracting := [0]
  lhsNonContracting := [0]
  rhsNonContracting := [1]
  lhsBatch := []
  rhsBatch := []
  wf := dot_S100000x768_S768x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KernelRun.lean ====
/-
  The kernel program's run with its result named.

  @main is four kernel launches among stretches of host operations. Every weakly fair execution terminates, nothing
  faulting; each argument array ends as launched, and the result array ends at the contents the last boundary of the
  run holds for it: `W8 m ρ c` read at the result's buffer — the fold of the host stretches and of the four
  pipelines' write-backs from the launch memory. The later modules read that fold stage by stage.
-/
import proofs.«109633_j5531917877297_1_alg».proof.Proof.Gen.KernelIdeal.Frame

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem run_boundary : θ_run defs (onTc (τ := τ) (main (F := F))) ⟨m, fun _ => 0, ρ⟩ (fun r => ∀ c : Dev nD,
      r.2.mem ((c.tc : Thread nD τ).loc main_v123) = W8 m ρ c (Proc.devRef .tc main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v123 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Value

end
-- ==== Proof.Boundary.lean ====
/-
  What the kernel program's buffers hold at the first boundary of its run, and why a read-only buffer keeps its contents.

  The run's boundaries are numbered 0 (launch) to 8 (return): odd boundaries follow a stretch of host operations, even
  ones a kernel launch. A buffer that no operation of a stretch writes holds after the stretch what it held before
  (`host_keeps`). Before the first launch the host slices the two rows of the edge list (sources, destinations) out of
  the edge array and recasts the encoder's two bias vectors as one-row matrices; the encoder's other operands are
  arguments, still at their launch contents.
-/
import proofs.«109633_j5531917877297_1_alg».proof.Proof.Gen.KernelIdeal.Frame
import proofs.«109633_j5531917877297_1_alg».proof.Proof.Gen.ReferenceIdeal.Read
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes holds after the stretch what it held before: the stretch's
    operations are listed, each one's written buffer compared with the buffer in question. -/
macro "host_keeps" : tactic => `(tactic| (refine StableHlo.after_of_forall_not_mem _ _ (List.forall_iff_forall_mem.mp ?_); simp only [hostOps0, hostOps1, hostOps2, hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals (exact StableHlo.devRef_ne_of_ne (by decide))))

/-! ## The encoder's operands -/

theorem W1_main_arg0 (c : Dev nD) : W1 m ρ c (Proc.devRef .tc main_arg0) = m ((c : Thread nD τ).loc main_arg0) :=
  (by host_keeps : W1 m ρ c (Proc.devRef .tc main_arg0) = W0 m ρ c (Proc.devRef .tc main_arg0))
theorem W1_main_arg6 (c : Dev nD) : W1 m ρ c (Proc.devRef .tc main_arg6) = m ((c : Thread nD τ).loc main_arg6) :=
  (by host_keeps : W1 m ρ c (Proc.devRef .tc main_arg6) = W0 m ρ c (Proc.devRef .tc main_arg6))
theorem W1_main_arg8 (c : Dev nD) : W1 m ρ c (Proc.devRef .tc main_arg8) = m ((c : Thread nD τ).loc main_arg8) :=
  (by host_keeps : W1 m ρ c (Proc.devRef .tc main_arg8) = W0 m ρ c (Proc.devRef .tc main_arg8))
theorem W1_main_v4 (c : Dev nD) : W1 m ρ c (Proc.devRef .tc main_v4) = shapeCast S1x128 (m ((c : Thread nD τ).loc main_arg7)) shapeCasts_S128_S1x128 := by
  show StableHlo.after hostOps0 (W0 m ρ c) (Proc.devRef .tc main_v4) = _
  after_results
  try rfl
theorem W1_main_v5 (c : Dev nD) : W1 m ρ c (Proc.devRef .tc main_v5) = shapeCast S1x128 (m ((c : Thread nD τ).loc main_arg9)) shapeCasts_S128_S1x128 := by
  show StableHlo.after hostOps0 (W0 m ρ c) (Proc.devRef .tc main_v5) = _
  after_results
  try rfl

/-! ## The two rows of the edge list, in the reference program's own spelling of the same slice -/

theorem W1_main_v1 (c : Dev nD) : W1 m ρ c (Proc.devRef .tc main_v1) = Cert.ReferenceIdeal.Read.val_main_v1 (F := Ideal) (m ((c : Thread nD τ).loc main_arg4)) := by
  show StableHlo.after hostOps0 (W0 m ρ c) (Proc.devRef .tc main_v1) = _
  after_results
  try rfl
theorem W1_main_v3 (c : Dev nD) : W1 m ρ c (Proc.devRef .tc main_v3) = Cert.ReferenceIdeal.Read.val_main_v3 (F := Ideal) (m ((c : Thread nD τ).loc main_arg4)) := by
  show StableHlo.after hostOps0 (W0 m ρ c) (Proc.devRef .tc main_v3) = _
  after_results
  try rfl

end Cert.KernelIdeal.Value

end
-- ==== Proof.KeptTable.lean ====
/-
  The read-only buffers at every boundary of the kernel program's run, one lemma per boundary and buffer: an argument
  array holds its launch contents, a row of the edge list the row sliced out before the first launch. Each lemma is
  the previous boundary's lemma after one step: a host stretch that does not write the buffer, or a launch whose
  windows do not write it back.
-/
import proofs.«109633_j5531917877297_1_alg».proof.Proof.Boundary

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

theorem W1_main_arg10 (c : Dev nD) : W1 m ρ c (Proc.devRef .tc main_arg10) = m ((c : Thread nD τ).loc main_arg10) :=
  (by host_keeps : W1 m ρ c (Proc.devRef .tc main_arg10) = W0 m ρ c (Proc.devRef .tc main_arg10))
theorem W2_main_arg10 (c : Dev nD) : W2 m ρ c (Proc.devRef .tc main_arg10) = m ((c : Thread nD τ).loc main_arg10) :=
  (W2_of_ne m ρ c main_arg10 (by decide) : W2 m ρ c (Proc.devRef .tc main_arg10) = W1 m ρ c (Proc.devRef .tc main_arg10)).trans (W1_main_arg10 m ρ c)
theorem W3_main_arg10 (c : Dev nD) : W3 m ρ c (Proc.devRef .tc main_arg10) = m ((c : Thread nD τ).loc main_arg10) :=
  (by host_keeps : W3 m ρ c (Proc.devRef .tc main_arg10) = W2 m ρ c (Proc.devRef .tc main_arg10)).trans (W2_main_arg10 m ρ c)
theorem W4_main_arg10 (c : Dev nD) : W4 m ρ c (Proc.devRef .tc main_arg10) = m ((c : Thread nD τ).loc main_arg10) :=
  ((W4_arr m ρ c 3).trans (((dat1 (V3 m ρ) c).arrAt_in 3 rfl _).trans (A_eq1 (V3 m ρ) c 3)) : W4 m ρ c (Proc.devRef .tc main_arg10) = W3 m ρ c (Proc.devRef .tc main_arg10)).trans (W3_main_arg10 m ρ c)
theorem W5_main_arg10 (c : Dev nD) : W5 m ρ c (Proc.devRef .tc main_arg10) = m ((c : Thread nD τ).loc main_arg10) :=
  (by host_keeps : W5 m ρ c (Proc.devRef .tc main_arg10) = W4 m ρ c (Proc.devRef .tc main_arg10)).trans (W4_main_arg10 m ρ c)
theorem W1_main_arg11 (c : Dev nD) : W1 m ρ c (Proc.devRef .tc main_arg11) = m ((c : Thread nD τ).loc main_arg11) :=
  (by host_keeps : W1 m ρ c (Proc.devRef .tc main_arg11) = W0 m ρ c (Proc.devRef .tc main_arg11))
theorem W2_main_arg11 (c : Dev nD) : W2 m ρ c (Proc.devRef .tc main_arg11) = m ((c : Thread nD τ).loc main_arg11) :=
  (W2_of_ne m ρ c main_arg11 (by decide) : W2 m ρ c (Proc.devRef .tc main_arg11) = W1 m ρ c (Proc.devRef .tc main_arg11)).trans (W1_main_arg11 m ρ c)
theorem W3_main_arg11 (c : Dev nD) : W3 m ρ c (Proc.devRef .tc main_arg11) = m ((c : Thread nD τ).loc main_arg11) :=
  (by host_keeps : W3 m ρ c (Proc.devRef .tc main_arg11) = W2 m ρ c (Proc.devRef .tc main_arg11)).trans (W2_main_arg11 m ρ c)
theorem W4_main_arg11 (c : Dev nD) : W4 m ρ c (Proc.devRef .tc main_arg11) = m ((c : Thread nD τ).loc main_arg11) :=
  ((W4_arr m ρ c 1).trans (((dat1 (V3 m ρ) c).arrAt_in 1 rfl _).trans (A_eq1 (V3 m ρ) c 1)) : W4 m ρ c (Proc.devRef .tc main_arg11) = W3 m ρ c (Proc.devRef .tc main_arg11)).trans (W3_main_arg11 m ρ c)
theorem W5_main_arg11 (c : Dev nD) : W5 m ρ c (Proc.devRef .tc main_arg11) = m ((c : Thread nD τ).loc main_arg11) :=
  (by host_keeps : W5 m ρ c (Proc.devRef .tc main_arg11) = W4 m ρ c (Proc.devRef .tc main_arg11)).trans (W4_main_arg11 m ρ c)
theorem W1_main_arg12 (c : Dev nD) : W1 m ρ c (Proc.devRef .tc main_arg12) = m ((c : Thread nD τ).loc main_arg12) :=
  (by host_keeps : W1 m ρ c (Proc.devRef .tc main_arg12) = W0 m ρ c (Proc.devRef .tc main_arg12))
theorem W2_main_arg12 (c : Dev nD) : W2 m ρ c (Proc.devRef .tc main_arg12) = m ((c : Thread nD τ).loc main_arg12) :=
  (W2_of_ne m ρ c main_arg12 (by decide) : W2 m ρ c (Proc.devRef .tc main_arg12) = W1 m ρ c (Proc.devRef .tc main_arg12)).trans (W1_main_arg12 m ρ c)
theorem W3_main_arg12 (c : Dev nD) : W3 m ρ c (Proc.devRef .tc main_arg12) = m ((c : Thread nD τ).loc main_arg12) :=
  (by host_keeps : W3 m ρ c (Proc.devRef .tc main_arg12) = W2 m ρ c (Proc.devRef .tc main_arg12)).trans (W2_main_arg12 m ρ c)
theorem W4_main_arg12 (c : Dev nD) : W4 m ρ c (Proc.devRef .tc main_arg12) = m ((c : Thread nD τ).loc main_arg12) :=
  (W4_of_ne m ρ c main_arg12 (by decide) : W4 m ρ c (Proc.devRef .tc main_arg12) = W3 m ρ c (Proc.devRef .tc main_arg12)).trans (W3_main_arg12 m ρ c)
theorem W1_main_arg13 (c : Dev nD) : W1 m ρ c (Proc.devRef .tc main_arg13) = m ((c : Thread nD τ).loc main_arg13) :=
  (by host_keeps : W1 m ρ c (Proc.devRef .tc main_arg13) = W0 m ρ c (Proc.devRef .tc main_arg13))
theorem W2_main_arg13 (c : Dev nD) : W2 m ρ c (Proc.devRef .tc main_arg13) = m ((c : Thread nD τ).loc main_arg13) :=
  (W2_of_ne m ρ c main_arg13 (by decide) : W2 m ρ c (Proc.devRef .tc main_arg13) = W1 m ρ c (Proc.devRef .tc main_arg13)).trans (W1_main_arg13 m ρ c)
theorem W3_main_arg13 (c : Dev nD) : W3 m ρ c (Proc.devRef .tc main_arg13) = m ((c : Thread nD τ).loc main_arg13) :=
  (by host_keeps : W3 m ρ c (Proc.devRef .tc main_arg13) = W2 m ρ c (Proc.devRef .tc main_arg13)).trans (W2_main_arg13 m ρ c)
theorem W4_main_arg13 (c : Dev nD) : W4 m ρ c (Proc.devRef .tc main_arg13) = m ((c : Thread nD τ).loc main_arg13) :=
  (W4_of_ne m ρ c main_arg13 (by decide) : W4 m ρ c (Proc.devRef .tc main_arg13) = W3 m ρ c (Proc.devRef .tc main_arg13)).trans (W3_main_arg13 m ρ c)
theorem W5_main_arg13 (c : Dev nD) : W5 m ρ c (Proc.devRef .tc main_arg13) = m ((c : Thread nD τ).loc main_arg13) :=
  (by host_keeps : W5 m ρ c (Proc.devRef .tc main_arg13) = W4 m ρ c (Proc.devRef .tc main_arg13)).trans (W4_main_arg13 m ρ c)
theorem W6_main_arg13 (c : Dev nD) : W6 m ρ c (Proc.devRef .tc main_arg13) = m ((c : Thread nD τ).loc main_arg13) :=
  (W6_of_ne m ρ c main_arg13 (by decide) : W6 m ρ c (Proc.devRef .tc main_arg13) = W5 m ρ c (Proc.devRef .tc main_arg13)).trans (W5_main_arg13 m ρ c)
theorem W7_main_arg13 (c : Dev nD) : W7 m ρ c (Proc.devRef .tc main_arg13) = m ((c : Thread nD τ).loc main_arg13) :=
  (by host_keeps : W7 m ρ c (Proc.devRef .tc main_arg13) = W6 m ρ c (Proc.devRef .tc main_arg13)).trans (W6_main_arg13 m ρ c)
theorem W1_main_arg14 (c : Dev nD) : W1 m ρ c (Proc.devRef .tc main_arg14) = m ((c : Thread nD τ).loc main_arg14) :=
  (by host_keeps : W1 m ρ c (Proc.devRef .tc main_arg14) = W0 m ρ c (Proc.devRef .tc main_arg14))
theorem W2_main_arg14 (c : Dev nD) : W2 m ρ c (Proc.devRef .tc main_arg14) = m ((c : Thread nD τ).loc main_arg14) :=
  (W2_of_ne m ρ c main_arg14 (by decide) : W2 m ρ c (Proc.devRef .tc main_arg14) = W1 m ρ c (Proc.devRef .tc main_arg14)).trans (W1_main_arg14 m ρ c)
theorem W3_main_arg14 (c : Dev nD) : W3 m ρ c (Proc.devRef .tc main_arg14) = m ((c : Thread nD τ).loc main_arg14) :=
  (by host_keeps : W3 m ρ c (Proc.devRef .tc main_arg14) = W2 m ρ c (Proc.devRef .tc main_arg14)).trans (W2_main_arg14 m ρ c)
theorem W4_main_arg14 (c : Dev nD) : W4 m ρ c (Proc.devRef .tc main_arg14) = m ((c : Thread nD τ).loc main_arg14) :=
  (W4_of_ne m ρ c main_arg14 (by decide) : W4 m ρ c (Proc.devRef .tc main_arg14) = W3 m ρ c (Proc.devRef .tc main_arg14)).trans (W3_main_arg14 m ρ c)
theorem W5_main_arg14 (c : Dev nD) : W5 m ρ c (Proc.devRef .tc main_arg14) = m ((c : Thread nD τ).loc main_arg14) :=
  (by host_keeps : W5 m ρ c (Proc.devRef .tc main_arg14) = W4 m ρ c (Proc.devRef .tc main_arg14)).trans (W4_main_arg14 m ρ c)
theorem W6_main_arg14 (c : Dev nD) : W6 m ρ c (Proc.devRef .tc main_arg14) = m ((c : Thread nD τ).loc main_arg14) :=
  (W6_of_ne m ρ c main_arg14 (by decide) : W6 m ρ c (Proc.devRef .tc main_arg14) = W5 m ρ c (Proc.devRef .tc main_arg14)).trans (W5_main_arg14 m ρ c)
theorem W1_main_arg15 (c : Dev nD) : W1 m ρ c (Proc.devRef .tc main_arg15) = m ((c : Thread nD τ).loc main_arg15) :=
  (by host_keeps : W1 m ρ c (Proc.devRef .tc main_arg15) = W0 m ρ c (Proc.devRef .tc main_arg15))
theorem W2_main_arg15 (c : Dev nD) : W2 m ρ c (Proc.devRef .tc main_arg15) = m ((c : Thread nD τ).loc main_arg15) :=
  (W2_of_ne m ρ c main_arg15 (by decide) : W2 m ρ c (Proc.devRef .tc main_arg15) = W1 m ρ c (Proc.devRef .tc main_arg15)).trans (W1_main_arg15 m ρ c)
theorem W3_main_arg15 (c : Dev nD) : W3 m ρ c (Proc.devRef .tc main_arg15) = m ((c : Thread nD τ).loc main_arg15) :=
  (by host_keeps : W3 m ρ c (Proc.devRef .tc main_arg15) = W2 m ρ c (Proc.devRef .tc main_arg15)).trans (W2_main_arg15 m ρ c)
theorem W4_main_arg15 (c : Dev nD) : W4 m ρ c (Proc.devRef .tc main_arg15) = m ((c : Thread nD τ).loc main_arg15) :=
  (W4_of_ne m ρ c main_arg15 (by decide) : W4 m ρ c (Proc.devRef .tc main_arg15) = W3 m ρ c (Proc.devRef .tc main_arg15)).trans (W3_main_arg15 m ρ c)
theorem W5_main_arg15 (c : Dev nD) : W5 m ρ c (Proc.devRef .tc main_arg15) = m ((c : Thread nD τ).loc main_arg15) :=
  (by host_keeps : W5 m ρ c (Proc.devRef .tc main_arg15) = W4 m ρ c (Proc.devRef .tc main_arg15)).trans (W4_main_arg15 m ρ c)
theorem W6_main_arg15 (c : Dev nD) : W6 m ρ c (Proc.devRef .tc main_arg15) = m ((c : Thread nD τ).loc main_arg15) :=
  (W6_of_ne m ρ c main_arg15 (by decide) : W6 m ρ c (Proc.devRef .tc main_arg15) = W5 m ρ c (Proc.devRef .tc main_arg15)).trans (W5_main_arg15 m ρ c)
theorem W7_main_arg15 (c : Dev nD) : W7 m ρ c (Proc.devRef .tc main_arg15) = m ((c : Thread nD τ).loc main_arg15) :=
  (by host_keeps : W7 m ρ c (Proc.devRef .tc main_arg15) = W6 m ρ c (Proc.devRef .tc main_arg15)).trans (W6_main_arg15 m ρ c)
theorem W1_main_arg16 (c : Dev nD) : W1 m ρ c (Proc.devRef .tc main_arg16) = m ((c : Thread nD τ).loc main_arg16) :=
  (by host_keeps : W1 m ρ c (Proc.devRef .tc main_arg16) = W0 m ρ c (Proc.devRef .tc main_arg16))
theorem W2_main_arg16 (c : Dev nD) : W2 m ρ c (Proc.devRef .tc main_arg16) = m ((c : Thread nD τ).loc main_arg16) :=
  (W2_of_ne m ρ c main_arg16 (by decide) : W2 m ρ c (Proc.devRef .tc main_arg16) = W1 m ρ c (Proc.devRef .tc main_arg16)).trans (W1_main_arg16 m ρ c)
theorem W3_main_arg16 (c : Dev nD) : W3 m ρ c (Proc.devRef .tc main_arg16) = m ((c : Thread nD τ).loc main_arg16) :=
  (by host_keeps : W3 m ρ c (Proc.devRef .tc main_arg16) = W2 m ρ c (Proc.devRef .tc main_arg16)).trans (W2_main_arg16 m ρ c)
theorem W4_main_arg16 (c : Dev nD) : W4 m ρ c (Proc.devRef .tc main_arg16) = m ((c : Thread nD τ).loc main_arg16) :=
  (W4_of_ne m ρ c main_arg16 (by decide) : W4 m ρ c (Proc.devRef .tc main_arg16) = W3 m ρ c (Proc.devRef .tc main_arg16)).trans (W3_main_arg16 m ρ c)
theorem W5_main_arg16 (c : Dev nD) : W5 m ρ c (Proc.devRef .tc main_arg16) = m ((c : Thread nD τ).loc main_arg16) :=
  (by host_keeps : W5 m ρ c (Proc.devRef .tc main_arg16) = W4 m ρ c (Proc.devRef .tc main_arg16)).trans (W4_main_arg16 m ρ c)
theorem W6_main_arg16 (c : Dev nD) : W6 m ρ c (Proc.devRef .tc main_arg16) = m ((c : Thread nD τ).loc main_arg16) :=
  (W6_of_ne m ρ c main_arg16 (by decide) : W6 m ρ c (Proc.devRef .tc main_arg16) = W5 m ρ c (Proc.devRef .tc main_arg16)).trans (W5_main_arg16 m ρ c)
theorem W1_main_arg5 (c : Dev nD) : W1 m ρ c (Proc.devRef .tc main_arg5) = m ((c : Thread nD τ).loc main_arg5) :=
  (by host_keeps : W1 m ρ c (Proc.devRef .tc main_arg5) = W0 m ρ c (Proc.devRef .tc main_arg5))
theorem W2_main_arg5 (c : Dev nD) : W2 m ρ c (Proc.devRef .tc main_arg5) = m ((c : Thread nD τ).loc main_arg5) :=
  (W2_of_ne m ρ c main_arg5 (by decide) : W2 m ρ c (Proc.devRef .tc main_arg5) = W1 m ρ c (Proc.devRef .tc main_arg5)).trans (W1_main_arg5 m ρ c)
theorem W3_main_arg5 (c : Dev nD) : W3 m ρ c (Proc.devRef .tc main_arg5) = m ((c : Thread nD τ).loc main_arg5) :=
  (by host_keeps : W3 m ρ c (Proc.devRef .tc main_arg5) = W2 m ρ c (Proc.devRef .tc main_arg5)).trans (W2_main_arg5 m ρ c)
theorem W4_main_arg5 (c : Dev nD) : W4 m ρ c (Proc.devRef .tc main_arg5) = m ((c : Thread nD τ).loc main_arg5) :=
  (W4_of_ne m ρ c main_arg5 (by decide) : W4 m ρ c (Proc.devRef .tc main_arg5) = W3 m ρ c (Proc.devRef .tc main_arg5)).trans (W3_main_arg5 m ρ c)
theorem W5_main_arg5 (c : Dev nD) : W5 m ρ c (Proc.devRef .tc main_arg5) = m ((c : Thread nD τ).loc main_arg5) :=
  (by host_keeps : W5 m ρ c (Proc.devRef .tc main_arg5) = W4 m ρ c (Proc.devRef .tc main_arg5)).trans (W4_main_arg5 m ρ c)
theorem W6_main_arg5 (c : Dev nD) : W6 m ρ c (Proc.devRef .tc main_arg5) = m ((c : Thread nD τ).loc main_arg5) :=
  (W6_of_ne m ρ c main_arg5 (by decide) : W6 m ρ c (Proc.devRef .tc main_arg5) = W5 m ρ c (Proc.devRef .tc main_arg5)).trans (W5_main_arg5 m ρ c)
theorem W2_main_v1 (c : Dev nD) : W2 m ρ c (Proc.devRef .tc main_v1) = Cert.ReferenceIdeal.Read.val_main_v1 (F := Ideal) (m ((c : Thread nD τ).loc main_arg4)) :=
  (W2_of_ne m ρ c main_v1 (by decide) : W2 m ρ c (Proc.devRef .tc main_v1) = W1 m ρ c (Proc.devRef .tc main_v1)).trans (W1_main_v1 m ρ c)
theorem W3_main_v1 (c : Dev nD) : W3 m ρ c (Proc.devRef .tc main_v1) = Cert.ReferenceIdeal.Read.val_main_v1 (F := Ideal) (m ((c : Thread nD τ).loc main_arg4)) :=
  (by host_keeps : W3 m ρ c (Proc.devRef .tc main_v1) = W2 m ρ c (Proc.devRef .tc main_v1)).trans (W2_main_v1 m ρ c)
theorem W4_main_v1 (c : Dev nD) : W4 m ρ c (Proc.devRef .tc main_v1) = Cert.ReferenceIdeal.Read.val_main_v1 (F := Ideal) (m ((c : Thread nD τ).loc main_arg4)) :=
  (W4_of_ne m ρ c main_v1 (by decide) : W4 m ρ c (Proc.devRef .tc main_v1) = W3 m ρ c (Proc.devRef .tc main_v1)).trans (W3_main_v1 m ρ c)
theorem W5_main_v1 (c : Dev nD) : W5 m ρ c (Proc.devRef .tc main_v1) = Cert.ReferenceIdeal.Read.val_main_v1 (F := Ideal) (m ((c : Thread nD τ).loc main_arg4)) :=
  (by host_keeps : W5 m ρ c (Proc.devRef .tc main_v1) = W4 m ρ c (Proc.devRef .tc main_v1)).trans (W4_main_v1 m ρ c)
theorem W6_main_v1 (c : Dev nD) : W6 m ρ c (Proc.devRef .tc main_v1) = Cert.ReferenceIdeal.Read.val_main_v1 (F := Ideal) (m ((c : Thread nD τ).loc main_arg4)) :=
  (W6_of_ne m ρ c main_v1 (by decide) : W6 m ρ c (Proc.devRef .tc main_v1) = W5 m ρ c (Proc.devRef .tc main_v1)).trans (W5_main_v1 m ρ c)
theorem W2_main_v3 (c : Dev nD) : W2 m ρ c (Proc.devRef .tc main_v3) = Cert.ReferenceIdeal.Read.val_main_v3 (F := Ideal) (m ((c : Thread nD τ).loc main_arg4)) :=
  (W2_of_ne m ρ c main_v3 (by decide) : W2 m ρ c (Proc.devRef .tc main_v3) = W1 m ρ c (Proc.devRef .tc main_v3)).trans (W1_main_v3 m ρ c)
theorem W3_main_v3 (c : Dev nD) : W3 m ρ c (Proc.devRef .tc main_v3) = Cert.ReferenceIdeal.Read.val_main_v3 (F := Ideal) (m ((c : Thread nD τ).loc main_arg4)) :=
  (by host_keeps : W3 m ρ c (Proc.devRef .tc main_v3) = W2 m ρ c (Proc.devRef .tc main_v3)).trans (W2_main_v3 m ρ c)
theorem W4_main_v3 (c : Dev nD) : W4 m ρ c (Proc.devRef .tc main_v3) = Cert.ReferenceIdeal.Read.val_main_v3 (F := Ideal) (m ((c : Thread nD τ).loc main_arg4)) :=
  (W4_of_ne m ρ c main_v3 (by decide) : W4 m ρ c (Proc.devRef .tc main_v3) = W3 m ρ c (Proc.devRef .tc main_v3)).trans (W3_main_v3 m ρ c)
theorem W5_main_v3 (c : Dev nD) : W5 m ρ c (Proc.devRef .tc main_v3) = Cert.ReferenceIdeal.Read.val_main_v3 (F := Ideal) (m ((c : Thread nD τ).loc main_arg4)) :=
  (by host_keeps : W5 m ρ c (Proc.devRef .tc main_v3) = W4 m ρ c (Proc.devRef .tc main_v3)).trans (W4_main_v3 m ρ c)
theorem W6_main_v3 (c : Dev nD) : W6 m ρ c (Proc.devRef .tc main_v3) = Cert.ReferenceIdeal.Read.val_main_v3 (F := Ideal) (m ((c : Thread nD τ).loc main_arg4)) :=
  (W6_of_ne m ρ c main_v3 (by decide) : W6 m ρ c (Proc.devRef .tc main_v3) = W5 m ρ c (Proc.devRef .tc main_v3)).trans (W5_main_v3 m ρ c)

end Cert.KernelIdeal.Value

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.Spec.lean ====
/-
  The four dense stages of the network, one row at a time, on the extended reals.

  Every stage maps row r of its input array to row r of its output array, so each stage is stated once as a function of
  a row (`encRow`, `affine`, `relRow`, `outRow`) and the array-level stage is "that function in every row"
  (`ofRows`), at ANY number of rows: a block of rows and the whole array are instances of one definition.

    leaky x        = x when x ≥ 0, else 0.01·x, spelled with the comparison, product and selection the programs use
    encRow d       = leaky (leaky (d·Wd + bd)·Wi + bi)
    Root x W b     : row r ↦ x_r·W + b
    Rel x Wrel q   : row r ↦ x_r·Wrel[q]                      (q one of the two relations)
    RelCat x Wrel  : row r ↦ (x_r·Wrel[0] , x_r·Wrel[1])      (the two results side by side, 256 lanes)
    Out x …        : row r ↦ leaky (x_r·W1 + b1)·W2 + b2
-/
import Idealize.ShloMosaic.Lib.ValueLayout
import Idealize.ShloMosaic.Lib.ValueIdx
import Idealize.ShloMosaic.PureOps.Ideal.Laws
import proofs.«109633_j5531917877297_1_alg».proof.Proof.LibDenseRows

noncomputable section

namespace Cert.Rgcn

open Idealize.ShloMosaic Idealize.ShloMosaic.ValueIdx Cert.DenseRows

/-- The leaky rectifier on one extended real, in the programs' own spelling: compare with the zero word, keep the
    number or its product with the slope word. -/
def leaky (x : Ideal .f32) : Ideal .f32 :=
  Scalar.select (FloatOps.cmpf (F := Ideal) .oge x (FloatOps.ofBits (F := Ideal) .f32 0x00000000#32)) x
    (FloatOps.mulf (F := Ideal) (FloatOps.ofBits (F := Ideal) .f32 0x3C23D70A#32) x)

/-- The rectifier in every entry of a row. -/
def leakyRow {N : ℕ} (v : Fin N → EReal) : Fin N → EReal := fun n => leaky (v n)

/-- An array given row by row. -/
def ofRows {R N : ℕ} (f : Fin R → Fin N → EReal) : (⟨2, ![R, N]⟩ : Shape).Idx → EReal := fun i => f (i 0) (i 1)

theorem ofRows_apply {R N : ℕ} (f : Fin R → Fin N → EReal) (r : Fin R) (n : Fin N) : ofRows f (ix2 r n) = f r n := rfl

theorem row_ofRows {R N : ℕ} (f : Fin R → Fin N → EReal) (r : Fin R) : row (ofRows f) r = f r := rfl

/-- Two arrays with the same rows are equal. -/
theorem ext_rows {R N : ℕ} (u v : (⟨2, ![R, N]⟩ : Shape).Idx → EReal) (h : ∀ r : Fin R, row u r = row v r) : u = v := by
  funext i
  rw [eq_ix2 i]
  exact congrFun (h (i 0)) (i 1)

/-- An array is its rows put back together. -/
theorem ofRows_row {R N : ℕ} (u : (⟨2, ![R, N]⟩ : Shape).Idx → EReal) : ofRows (fun r => row u r) = u :=
  ext_rows _ _ fun _ => rfl

/-! ## The encoder: two dense layers, each followed by the rectifier -/

def encRow (d : Fin 768 → EReal) (Wd : Fin 768 → Fin 128 → EReal) (bd : Fin 128 → EReal)
    (Wi : Fin 128 → Fin 128 → EReal) (bi : Fin 128 → EReal) : Fin 128 → EReal :=
  leakyRow (affine (leakyRow (affine d Wd bd)) Wi bi)

def Enc {R : ℕ} (des : (⟨2, ![R, 768]⟩ : Shape).Idx → EReal) (Wd : (⟨2, ![768, 128]⟩ : Shape).Idx → EReal)
    (bd : Fin 128 → EReal) (Wi : (⟨2, ![128, 128]⟩ : Shape).Idx → EReal) (bi : Fin 128 → EReal) :
    (⟨2, ![R, 128]⟩ : Shape).Idx → EReal :=
  ofRows fun r => encRow (row des r) (mat Wd) bd (mat Wi) bi

/-! ## The convolution's dense parts -/

def Root {R : ℕ} (x : (⟨2, ![R, 128]⟩ : Shape).Idx → EReal) (W : (⟨2, ![128, 128]⟩ : Shape).Idx → EReal)
    (b : Fin 128 → EReal) : (⟨2, ![R, 128]⟩ : Shape).Idx → EReal :=
  ofRows fun r => affine (row x r) (mat W) b

/-- Relation q's weight matrix out of the stacked weights. -/
def relMat (Wrel : (⟨3, ![2, 128, 128]⟩ : Shape).Idx → EReal) (q : Fin 2) : Fin 128 → Fin 128 → EReal :=
  fun k n => Wrel (ix3 q k n)

/-- A row times a matrix, no bias. -/
def relRow (h : Fin 128 → EReal) (W : Fin 128 → Fin 128 → EReal) : Fin 128 → EReal := fun n => ∑ k : Fin 128, h k * W k n

def Rel {R : ℕ} (x : (⟨2, ![R, 128]⟩ : Shape).Idx → EReal) (Wrel : (⟨3, ![2, 128, 128]⟩ : Shape).Idx → EReal) (q : Fin 2) :
    (⟨2, ![R, 128]⟩ : Shape).Idx → EReal :=
  ofRows fun r => relRow (row x r) (relMat Wrel q)

/-- Both relations' products side by side: lanes 0–127 relation 0, lanes 128–255 relation 1. -/
def RelCat {R : ℕ} (x : (⟨2, ![R, 128]⟩ : Shape).Idx → EReal) (Wrel : (⟨3, ![2, 128, 128]⟩ : Shape).Idx → EReal) :
    (⟨2, ![R, 256]⟩ : Shape).Idx → EReal :=
  ofRows fun r j =>
    if h : j.val < 128 then relRow (row x r) (relMat Wrel 0) ⟨j.val, h⟩
    else relRow (row x r) (relMat Wrel 1) ⟨j.val - 128, by have := j.isLt; omega⟩

/-! ## The output head: a dense layer, the rectifier, a dense layer -/

def outRow (h : Fin 128 → EReal) (W1 : Fin 128 → Fin 128 → EReal) (b1 : Fin 128 → EReal)
    (W2 : Fin 128 → Fin 2 → EReal) (b2 : Fin 2 → EReal) : Fin 2 → EReal :=
  affine (leakyRow (affine h W1 b1)) W2 b2

def Out {R : ℕ} (x : (⟨2, ![R, 128]⟩ : Shape).Idx → EReal) (W1 : (⟨2, ![128, 128]⟩ : Shape).Idx → EReal)
    (b1 : Fin 128 → EReal) (W2 : (⟨2, ![128, 2]⟩ : Shape).Idx → EReal) (b2 : Fin 2 → EReal) :
    (⟨2, ![R, 2]⟩ : Shape).Idx → EReal :=
  ofRows fun r => outRow (row x r) (mat W1) b1 (mat W2) b2

end Cert.Rgcn

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«109633_j5531917877297_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.EncBlocks.lean ====
/-
  The encoder stage, from blocks of 2000 rows to the whole array.

  The encoder maps row r of the [100000, 768] input to row r of the [100000, 128] output:
      row ↦ leaky (leaky (row · Wd + bd) · Wi + bi).
  The kernel works in 50 steps; step t reads rows 2000 t … 2000 t + 1999 of the input and the whole weight and bias
  arrays, and writes rows 2000 t … 2000 t + 1999 of the output.

    enc_body   : what one step computes from its blocks is `Enc` at 2000 rows — row by row, each dense layer is
                 `affine` of the row (a change of float format is the identity on the extended reals, the bias is one
                 row spread over all rows), and the rectifier acts entry by entry.
    enc_flushed: what step t writes back is block t of `Enc` at 100000 rows — row j of block t is row 2000 t + j of
                 the array, and the weight and bias blocks are the whole arrays.
    enc_final  : the 50 blocks fill the output array (row r lies in block r / 2000), so the array ends holding `Enc` of
                 the input array.
-/
import proofs.«109633_j5531917877297_1_alg».proof.Proof.Gen.KernelIdeal.Frame
import proofs.«109633_j5531917877297_1_alg».proof.Proof.Spec
import proofs.«109633_j5531917877297_1_alg».proof.Proof.LibBlockRows
import Idealize.ShloMosaic.Lib.Pipeline.Value

set_option maxRecDepth 16384

noncomputable section

namespace Cert.KernelIdeal.EncValue

open Cert.KernelIdeal Cert.KernelIdeal.Gen Idealize.ShloMosaic Idealize.ShloMosaic.TcCoe Idealize.SL.Sem Idealize.ShloMosaic.ValueIdx Cert.DenseRows Cert.Rgcn
open Idealize.ShloMosaic.Pipeline (Dat Cfg Window)

/-- Row r of a block after the rectifier is the rectifier of row r. -/
theorem row_leaky {R N : ℕ} (v : FVec Ideal ⟨2, ![R, N]⟩ .f32) (r : Fin R) :
    row (select (cmpf .oge v (broadcast ⟨2, ![R, N]⟩ (Scalar.ofBits (F := Ideal) .f32 0x00000000#32))) v
          (mulf (broadcast ⟨2, ![R, N]⟩ (Scalar.ofBits (F := Ideal) .f32 0x3C23D70A#32)) v)) r
      = leakyRow (row v r) := rfl

/-- Row r of one dense layer of the block. -/
theorem row_layer {R K N : ℕ} (d : DotDims ⟨2, ![R, K]⟩ ⟨2, ![K, N]⟩ ⟨2, ![R, N]⟩)
    (hd : d = DotDims.plain R K N) (prec : Option ContractPrecision)
    (a : FVec Ideal ⟨2, ![R, K]⟩ .f32) (w : FVec Ideal ⟨2, ![K, N]⟩ .f32) (b : FVec Ideal ⟨2, ![1, N]⟩ .f32)
    (h1 h2 : FTy.bf16.bits < FTy.f32.bits)
    (hc : (⟨2, ![1, N]⟩ : Shape).ShapeCasts ⟨2, ![1, N]⟩)
    (hb : (⟨2, ![1, N]⟩ : Shape).Broadcasts ⟨2, ![R, N]⟩) (r : Fin R) :
    row (addf (matmul d prec (truncf .bf16 a h1) (truncf .bf16 w h2) (constant (F := Ideal) ⟨2, ![R, N]⟩ .f32 0x00000000#32))
          (broadcastTo ⟨2, ![R, N]⟩ (shapeCast ⟨2, ![1, N]⟩ b hc) hb)) r
      = affine (row a r) (mat w) (row b (0 : Fin 1)) := by
  rw [shapeCast_self]
  exact Cert.LibBlockRows.row_matmul_rowbias d hd prec (truncf .bf16 a h1) (truncf .bf16 w h2) b hb r

theorem hd1 : dot_S2000x768_S768x128_S2000x128_1_0_0_1_n_n = DotDims.plain 2000 768 128 := rfl
theorem hd2 : dot_S2000x128_S128x128_S2000x128_1_0_0_1_n_n = DotDims.plain 2000 128 128 := rfl

theorem enc_body (x0 : Vec Ideal S2000x768 .f32) (x1 : Vec Ideal S768x128 .f32) (x2 : Vec Ideal S1x128 .f32)
    (x3 : Vec Ideal S128x128 .f32) (x4 : Vec Ideal S1x128 .f32) :
    k0_pay1 (F := Ideal) x0 x1 x2 x3 x4 = Enc (R := 2000) x0 x1 (row x2 0) x3 (row x4 0) := by
  refine ext_rows _ _ fun r => ?_
  refine (row_leaky _ r).trans ?_
  show _ = leakyRow (affine (leakyRow (affine (row x0 r) (mat x1) (row x2 0))) (mat x3) (row x4 0))
  refine congrArg leakyRow ?_
  refine (row_layer _ hd2 none _ x3 x4 _ _ _ _ r).trans ?_
  refine congrArg (fun h => affine h (mat x3) (row x4 0)) ?_
  refine (row_leaky _ r).trans ?_
  refine congrArg leakyRow ?_
  exact row_layer _ hd1 none x0 x1 x2 _ _ _ _ r

variable (V : (c : Dev nD) → (b : Ref sig .tc) → Buf (Elt Ideal) ((c : Thread nD τ).loc b))

theorem zero_offsets : (![0, 0] : Fin 2 → Nat) = fun _ => 0 := funext fun a => by fin_cases a <;> rfl

/-- Where the windows sit at each of the 50 steps: the row-blocked input and the output at row block t, lane block 0;
    the weights and biases whole. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49 :=
  (by decide +kernel : ∀ t : Fin grid0.N, _)

/-- Every row block is some step's. -/
theorem block_onto : ∀ q : Fin 50, ∃ t : Fin cfg0.N, win0_5.index t = ![q.val, 0] :=
  (by decide +kernel : ∀ q : Fin 50, ∃ t : Fin grid0.N, win0_5.index t = ![q.val, 0])

/-- The first weight matrix's block is the whole matrix at every step. -/
theorem whole_W1 (c : Dev nD) (t : Fin cfg0.N) :
    (iblk0 V c 1 t : S768x128.Idx → EReal) = V c (Pipeline.arrRef spec0 1) := by
  obtain ⟨-, -, e0, e1, -⟩ := block_indices t
  funext y
  show V c (Pipeline.arrRef spec0 1) (((cfg0.win 1).blk t).view.emb y) = V c (Pipeline.arrRef spec0 1) y
  refine congrArg _ ?_
  funext a; apply Fin.ext
  match a with
  | ⟨0, _⟩ => show win0_1.index t (0 : Fin 2) * 768 + 1 * (y 0).val = (y 0).val; omega
  | ⟨1, _⟩ => show win0_1.index t (1 : Fin 2) * 128 + 1 * (y 1).val = (y 1).val; omega

/-- The first bias row's block is the whole row at every step. -/
theorem whole_b1 (c : Dev nD) (t : Fin cfg0.N) :
    (iblk0 V c 2 t : S1x128.Idx → EReal) = V c (Pipeline.arrRef spec0 2) := by
  obtain ⟨-, -, -, -, e0, e1, -⟩ := block_indices t
  funext y
  show V c (Pipeline.arrRef spec0 2) (((cfg0.win 2).blk t).view.emb y) = V c (Pipeline.arrRef spec0 2) y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The second weight matrix's block is the whole matrix at every step. -/
theorem whole_W2 (c : Dev nD) (t : Fin cfg0.N) :
    (iblk0 V c 3 t : S128x128.Idx → EReal) = V c (Pipeline.arrRef spec0 3) := by
  obtain ⟨-, -, -, -, -, -, e0, e1, -⟩ := block_indices t
  funext y
  show V c (Pipeline.arrRef spec0 3) (((cfg0.win 3).blk t).view.emb y) = V c (Pipeline.arrRef spec0 3) y
  refine congrArg _ ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second bias row's block is the whole row at every step. -/
theorem whole_b2 (c : Dev nD) (t : Fin cfg0.N) :
    (iblk0 V c 4 t : S1x128.Idx → EReal) = V c (Pipeline.arrRef spec0 4) := by
  obtain ⟨-, -, -, -, -, -, -, -, e0, e1, -⟩ := block_indices t
  funext y
  show V c (Pipeline.arrRef spec0 4) (((cfg0.win 4).blk t).view.emb y) = V c (Pipeline.arrRef spec0 4) y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- What step t writes back is block t of the encoder applied to all 100000 rows. -/
theorem enc_flushed (c : Dev nD) (t : Fin cfg0.N) :
    (dat0 (F := Ideal) V c).flushed 5 t = ((cfg0.win 5).blk t).view.read (Elt Ideal)
      (Enc (R := 100000) (V c (Pipeline.arrRef spec0 0)) (V c (Pipeline.arrRef spec0 1)) (row (V c (Pipeline.arrRef spec0 2)) 0)
          (V c (Pipeline.arrRef spec0 3)) (row (V c (Pipeline.arrRef spec0 4)) 0)) := by
  show (cfg0.win 5).cut (grid0.coords t) ((dat0 V c).after 5 t) = _
  rw [after0_5]
  unfold out0_5
  rw [View.canon_unit_zero zero_offsets]
  simp only [View.ld_unit_zero (S := S2000x768) zero_offsets, View.ld_unit_zero (S := S768x128) zero_offsets,
    View.ld_unit_zero (S := S1x128) zero_offsets, View.ld_unit_zero (S := S128x128) zero_offsets]
  rw [enc_body]
  obtain ⟨e0, e1, -, -, -, -, -, -, -, -, e5, -⟩ := block_indices t
  funext j
  show encRow (row (iblk0 V c 0 t) (j 0)) (mat (iblk0 V c 1 t)) (row (iblk0 V c 2 t) 0) (mat (iblk0 V c 3 t))
        (row (iblk0 V c 4 t) 0) (j 1)
      = encRow (row (V c (Pipeline.arrRef spec0 0)) ((((cfg0.win 5).blk t).view.emb j) 0)) (mat (V c (Pipeline.arrRef spec0 1)))
          (row (V c (Pipeline.arrRef spec0 2)) 0) (mat (V c (Pipeline.arrRef spec0 3))) (row (V c (Pipeline.arrRef spec0 4)) 0)
          ((((cfg0.win 5).blk t).view.emb j) 1)
  rw [whole_W1 V c t, whole_b1 V c t, whole_W2 V c t, whole_b2 V c t]
  have hl : (((cfg0.win 5).blk t).view.emb j) 1 = j 1 :=
    Fin.ext (by show win0_5.index t (1 : Fin 2) * 128 + 1 * (j 1).val = (j 1).val; omega)
  have hr : row (iblk0 V c 0 t) (j 0) = row (V c (Pipeline.arrRef spec0 0)) ((((cfg0.win 5).blk t).view.emb j) 0) := by
    funext k
    show V c (Pipeline.arrRef spec0 0) (((cfg0.win 0).blk t).view.emb (ix2 (j 0) k))
        = V c (Pipeline.arrRef spec0 0) (ix2 ((((cfg0.win 5).blk t).view.emb j) 0) k)
    refine congrArg _ ?_
    funext a; apply Fin.ext
    match a with
    | ⟨0, _⟩ =>
      show win0_0.index t (0 : Fin 2) * 2000 + 1 * (j 0).val = win0_5.index t (0 : Fin 2) * 2000 + 1 * (j 0).val
      omega
    | ⟨1, _⟩ => show win0_0.index t (1 : Fin 2) * 768 + 1 * k.val = k.val; omega
  rw [hr, hl]

/-- An index of the output array lies in step t's block iff each coordinate lies in the block's range. -/
theorem mem_block (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v6).slice (win0_5.rect t)).set ↔ _
  rw [View.set_slice_whole, Rect.mem_set_unit]
  exact Iff.rfl

/-- Row r lies in the block of step r / 2000: the 50 blocks of 2000 rows fill the array. -/
theorem enc_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The encoder kernel's output array after its 50 steps: the encoder applied to every row of the input array. -/
theorem enc_final (c : Dev nD) :
    (dat0 (F := Ideal) V c).arrAt 5 cfg0.N
      = Enc (R := 100000) (V c (Pipeline.arrRef spec0 0)) (V c (Pipeline.arrRef spec0 1)) (row (V c (Pipeline.arrRef spec0 2)) 0)
          (V c (Pipeline.arrRef spec0 3)) (row (V c (Pipeline.arrRef spec0 4)) 0) :=
  (dat0 V c).arrAt_eq_of_cover 5 _ (fun t _ => enc_flushed V c t) enc_cover

end Cert.KernelIdeal.EncValue

end
-- ==== Proof.RelBlocks1.lean ====
/-
  The relation-transform launch, read as arrays.

  Each point of the 50-point grid takes one block of 2000 rows of the activations, multiplies every row by the root
  matrix and adds the bias (the root output, 128 lanes), and multiplies every row by each of the two relation matrices
  (the relation output: relation 0 in lanes 0–127, relation 1 in lanes 128–255). Row r of every output depends on row
  r of the activations alone, so what a point leaves in its output block is the block of ONE whole-array function of
  the arguments, and the blocks tile the arrays: after the last point the root array is `Root` and the relation
  array is `RelCat` of the arrays the launch found.
-/
import Idealize.ShloMosaic.Lib.Pipeline.Value
import Idealize.ShloMosaic.Lib.Pipeline.FrameBody
import Idealize.ShloMosaic.Lib.ValueLayout
import Idealize.ShloMosaic.Lib.ValueIdx
import Idealize.ShloMosaic.PureOps.Ideal.Laws
import proofs.«109633_j5531917877297_1_alg».proof.Proof.Gen.KernelIdeal.Frame
import proofs.«109633_j5531917877297_1_alg».proof.Proof.Spec
import proofs.«109633_j5531917877297_1_alg».proof.Proof.LibBlockRows

set_option maxRecDepth 16384

noncomputable section

namespace Cert.KernelIdeal.RelValue1

open Cert.KernelIdeal Cert.KernelIdeal.Gen Idealize.ShloMosaic Idealize.ShloMosaic.TcCoe Idealize.SL.Sem Idealize.ShloMosaic.ValueIdx Cert.DenseRows Cert.Rgcn
open Idealize.ShloMosaic.Pipeline (Dat Cfg Window)

/-! ## The body on one block: every row of the payloads is the specification's row -/

/-- The dimension numbers of the body's products are the plain ones. -/
theorem dot_plain : dot_S2000x128_S128x128_S2000x128_1_0_0_1_n_n = DotDims.plain 2000 128 128 := rfl

/-- The root payload of a block of rows: every row times the root matrix, plus the bias row. -/
theorem root_body (x : Vec Ideal S2000x128 .f32) (W : Vec Ideal S128x128 .f32) (b : Vec Ideal S1x128 .f32) :
    k1_pay2 (F := Ideal) x W b = Root (R := 2000) x W (row b (0 : Fin 1)) := by
  refine ext_rows _ _ fun r => ?_
  unfold k1_pay2 k1_pay1
  refine (LibBlockRows.row_matmul_rowbias _ dot_plain none _ _ _ _ r).trans ?_
  rw [shapeCast_self, shapeCast_self]
  rfl

/-- A relation payload of a block of rows at a row and a lane: the row times the matrix the loaded slab holds. -/
theorem rel_body3 (x : Vec Ideal S2000x128 .f32) (S : Vec Ideal S1x128x128 .f32) (r : Fin 2000) (n : Fin 128) :
    k1_pay3 (F := Ideal) x S (ix2 r n) = relRow (row x r) (fun k n => S (ix3 (0 : Fin 1) k n)) n := by
  unfold k1_pay3 k1_pay1
  show FloatOps.matmul dot_S2000x128_S128x128_S2000x128_1_0_0_1_n_n none _ _ (constant (F := Ideal) S2000x128 .f32 0x00000000#32) (ix2 r n) = _
  rw [Ideal.matmul_constant_zero_apply, dot_plain, plain_contr_sum]
  refine Finset.sum_congr rfl fun k _ => ?_
  rw [shapeCast_self]
  show x (ix2 r k) * shapeCast S128x128 S shapeCasts_S1x128x128_S128x128 (ix2 k n) = _
  rw [shapeCast_1ab_ab_apply]
  rfl

/-- The other relation payload: the same product, with the other loaded slab. -/
theorem rel_body4 (x : Vec Ideal S2000x128 .f32) (S : Vec Ideal S1x128x128 .f32) (r : Fin 2000) (n : Fin 128) :
    k1_pay4 (F := Ideal) x S (ix2 r n) = relRow (row x r) (fun k n => S (ix3 (0 : Fin 1) k n)) n := by
  unfold k1_pay4 k1_pay1
  show FloatOps.matmul dot_S2000x128_S128x128_S2000x128_1_0_0_1_n_n none _ _ (constant (F := Ideal) S2000x128 .f32 0x00000000#32) (ix2 r n) = _
  rw [Ideal.matmul_constant_zero_apply, dot_plain, plain_contr_sum]
  refine Finset.sum_congr rfl fun k _ => ?_
  rw [shapeCast_self]
  show x (ix2 r k) * shapeCast S128x128 S shapeCasts_S1x128x128_S128x128 (ix2 k n) = _
  rw [shapeCast_1ab_ab_apply]
  rfl

/-- The slab the body loads first is relation 0's matrix. -/
theorem slab0 (W : Vec Ideal S2x128x128 .f32) :
    (fun (k n : Fin 128) => View.ld W r1_3 (ix3 (0 : Fin 1) k n)) = relMat W 0 := by
  funext k n
  show W (r1_3.idx (ix3 (0 : Fin 1) k n)) = W (ix3 (0 : Fin 2) k n)
  refine congrArg W (funext fun a => Fin.ext ?_)
  match a with
  | ⟨0, _⟩ => rfl
  | ⟨1, _⟩ => show 0 + 1 * k.val = k.val; omega
  | ⟨2, _⟩ => show 0 + 1 * n.val = n.val; omega

/-- The slab the body loads second is relation 1's matrix. -/
theorem slab1 (W : Vec Ideal S2x128x128 .f32) :
    (fun (k n : Fin 128) => View.ld W r1_5 (ix3 (0 : Fin 1) k n)) = relMat W 1 := by
  funext k n
  show W (r1_5.idx (ix3 (0 : Fin 1) k n)) = W (ix3 (1 : Fin 2) k n)
  refine congrArg W (funext fun a => Fin.ext ?_)
  match a with
  | ⟨0, _⟩ => rfl
  | ⟨1, _⟩ => show 0 + 1 * k.val = k.val; omega
  | ⟨2, _⟩ => show 0 + 1 * n.val = n.val; omega

/-! ## The specification at an index -/

/-- The side-by-side array in a lane below 128 is relation 0's product. -/
theorem relCat_lo {R : ℕ} (x : (⟨2, ![R, 128]⟩ : Shape).Idx → EReal) (W : (⟨3, ![2, 128, 128]⟩ : Shape).Idx → EReal)
    (i : (⟨2, ![R, 256]⟩ : Shape).Idx) (r : Fin R) (q : Fin 128) (h0 : (i 0).val = r.val) (h1 : (i 1).val = q.val) :
    RelCat x W i = relRow (row x r) (relMat W 0) q := by
  have e0 : i 0 = r := Fin.ext h0
  have hq := q.isLt
  show (if h : (i 1).val < 128 then relRow (row x (i 0)) (relMat W 0) ⟨(i 1).val, h⟩
      else relRow (row x (i 0)) (relMat W 1) ⟨(i 1).val - 128, _⟩) = _
  rw [dif_pos (by omega), e0]
  exact congrArg _ (Fin.ext h1)

/-- The side-by-side array in a lane from 128 on is relation 1's product. -/
theorem relCat_hi {R : ℕ} (x : (⟨2, ![R, 128]⟩ : Shape).Idx → EReal) (W : (⟨3, ![2, 128, 128]⟩ : Shape).Idx → EReal)
    (i : (⟨2, ![R, 256]⟩ : Shape).Idx) (r : Fin R) (q : Fin 128) (h0 : (i 0).val = r.val) (h1 : (i 1).val = 128 + q.val) :
    RelCat x W i = relRow (row x r) (relMat W 1) q := by
  have e0 : i 0 = r := Fin.ext h0
  show (if h : (i 1).val < 128 then relRow (row x (i 0)) (relMat W 0) ⟨(i 1).val, h⟩
      else relRow (row x (i 0)) (relMat W 1) ⟨(i 1).val - 128, _⟩) = _
  rw [dif_neg (by omega), e0]
  exact congrArg _ (Fin.ext (by show (i 1).val - 128 = q.val; omega))

/-- The side-by-side arrays of two pairs of arguments agree at two indices of the same lane when the rows there
    and the two relation matrices agree. -/
theorem relCat_congr {R R' : ℕ} (x : (⟨2, ![R, 128]⟩ : Shape).Idx → EReal) (x' : (⟨2, ![R', 128]⟩ : Shape).Idx → EReal)
    (W W' : (⟨3, ![2, 128, 128]⟩ : Shape).Idx → EReal)
    (i : (⟨2, ![R, 256]⟩ : Shape).Idx) (i' : (⟨2, ![R', 256]⟩ : Shape).Idx)
    (hrow : row x (i 0) = row x' (i' 0)) (hW : ∀ q, relMat W q = relMat W' q) (hl : (i 1).val = (i' 1).val) :
    RelCat x W i = RelCat x' W' i' := by
  by_cases h : (i 1).val < 128
  · rw [relCat_lo x W i (i 0) ⟨(i 1).val, h⟩ rfl rfl, relCat_lo x' W' i' (i' 0) ⟨(i 1).val, h⟩ rfl hl.symm, hrow, hW]
  · have hlt : (i 1).val < 256 := (i 1).isLt
    rw [relCat_hi x W i (i 0) ⟨(i 1).val - 128, by omega⟩ rfl (by show _ = 128 + ((i 1).val - 128); omega),
      relCat_hi x' W' i' (i' 0) ⟨(i 1).val - 128, by omega⟩ rfl (by show _ = 128 + ((i 1).val - 128); omega), hrow, hW]

/-- The root arrays of two triples of arguments agree at two indices of the same lane when the rows there, the
    matrices and the bias rows agree. -/
theorem root_congr {R R' : ℕ} (x : (⟨2, ![R, 128]⟩ : Shape).Idx → EReal) (x' : (⟨2, ![R', 128]⟩ : Shape).Idx → EReal)
    (W W' : (⟨2, ![128, 128]⟩ : Shape).Idx → EReal) (b b' : Fin 128 → EReal)
    (i : (⟨2, ![R, 128]⟩ : Shape).Idx) (i' : (⟨2, ![R', 128]⟩ : Shape).Idx)
    (hrow : row x (i 0) = row x' (i' 0)) (hW : mat W = mat W') (hb : b = b') (hl : (i 1).val = (i' 1).val) :
    Root x W b i = Root x' W' b' i' := by
  show affine (row x (i 0)) (mat W) b (i 1) = affine (row x' (i' 0)) (mat W') b' (i' 1)
  rw [hrow, hW, hb]
  exact congrArg _ (Fin.ext hl)

/-! ## What the body leaves in its two output buffers -/

theorem zeros2 : (![0, 0] : Fin 2 → Nat) = fun _ => 0 := funext fun a => by fin_cases a <;> rfl

/-- The root output's buffer after the body: the root function of the blocks. -/
theorem root_block (x0 : Vec Ideal S2000x128 .f32) (x1 : Vec Ideal S128x128 .f32) (x2 : Vec Ideal S1x128 .f32)
    (x3 : Vec Ideal S2x128x128 .f32) :
    out1_4 (F := Ideal) x0 x1 x2 x3 = Root (R := 2000) x0 x1 (row x2 (0 : Fin 1)) := by
  unfold out1_4
  rw [View.canon_unit_zero zeros2]
  simp only [View.ld_unit_zero (S := S2000x128) zeros2, View.ld_unit_zero (S := S128x128) zeros2,
    View.ld_unit_zero (S := S1x128) zeros2]
  exact root_body _ _ _

/-- The relation output's buffer after the body's two stores: the side-by-side function of the blocks. -/
theorem rel_block (x0 : Vec Ideal S2000x128 .f32) (x1 : Vec Ideal S128x128 .f32) (x2 : Vec Ideal S1x128 .f32)
    (x3 : Vec Ideal S2x128x128 .f32) :
    out1_5 (F := Ideal) x0 x1 x2 x3 = RelCat (R := 2000) x0 x3 := by
  unfold out1_5
  simp only [View.ld_unit_zero (S := S2000x128) zeros2]
  funext y
  refine View.canon_apply_of_pieces (Val := Elt Ideal) (RelCat (R := 2000) x0 x3) _ ?_ y (cover1_5 _ _ y)
  intro p hp xi
  rcases List.mem_cons.mp hp with rfl | hp
  · obtain ⟨r, q, rfl⟩ : ∃ (r : Fin 2000) (q : Fin 128), xi = ix2 r q := ⟨xi 0, xi 1, eq_ix2 xi⟩
    show k1_pay4 (F := Ideal) x0 (View.ld x3 r1_5) (ix2 r q) = _
    rw [rel_body4, slab1]
    refine (relCat_hi x0 x3 _ r q ?_ ?_).symm
    · show 0 + 1 * r.val = r.val; omega
    · show 128 + 1 * q.val = 128 + q.val; omega
  · rcases List.mem_singleton.mp hp with rfl
    obtain ⟨r, q, rfl⟩ : ∃ (r : Fin 2000) (q : Fin 128), xi = ix2 r q := ⟨xi 0, xi 1, eq_ix2 xi⟩
    show k1_pay3 (F := Ideal) x0 (View.ld x3 r1_3) (ix2 r q) = _
    rw [rel_body3, slab0]
    refine (relCat_lo x0 x3 _ r q ?_ ?_).symm
    · show 0 + 1 * r.val = r.val; omega
    · show 0 + 1 * q.val = q.val; omega

/-! ## The blocks in the arrays -/

variable (V : (c : Dev nD) → (b : Ref sig .tc) → Buf (Elt Ideal) ((c : Thread nD τ).loc b))

/-- The index maps, decided over the grid: the activations' block and both outputs' blocks sit at the same row block
    and at lane block 0, the weights' and the bias's blocks are their whole arrays, and the row block is below 50. -/
theorem index_facts : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = 0 ∧ win1_3.index t (2 : Fin 3) = 0
    ∧ win1_4.index t (1 : Fin 2) = 0 ∧ win1_4.index t (0 : Fin 2) ≤ 49
    ∧ win1_5.index t (0 : Fin 2) = win1_4.index t (0 : Fin 2) ∧ win1_5.index t (1 : Fin 2) = 0 :=
  (by decide +kernel : ∀ t : Fin grid1.N, _)

/-- Every row block of the root output is some point's. -/
theorem root_onto : ∀ q : Fin 50, ∃ t : Fin cfg1.N, win1_4.index t = ![q.val, 0] :=
  (by decide +kernel : ∀ q : Fin 50, ∃ t : Fin grid1.N, win1_4.index t = ![q.val, 0])

/-- Every row block of the relation output is some point's. -/
theorem rel_onto : ∀ q : Fin 50, ∃ t : Fin cfg1.N, win1_5.index t = ![q.val, 0] :=
  (by decide +kernel : ∀ q : Fin 50, ∃ t : Fin grid1.N, win1_5.index t = ![q.val, 0])

/-- What point t writes back to the root array is block t of the root function of the arrays the launch found. -/
theorem root_flushed (c : Dev nD) (t : Fin cfg1.N) :
    (dat1 (F := Ideal) V c).flushed 4 t = ((cfg1.win 4).blk t).view.read (Elt Ideal)
      (Root (R := 100000) (V c (Pipeline.arrRef spec1 0)) (V c (Pipeline.arrRef spec1 1)) (row (V c (Pipeline.arrRef spec1 2)) 0)) := by
  show (cfg1.win 4).cut (grid1.coords t) ((dat1 (F := Ideal) V c).after 4 t) = _
  rw [after1_4, root_block]
  obtain ⟨e00, e01, e10, e11, e20, e21, e30, e31, e32, e41, e40, e50, e51⟩ := index_facts t
  funext j
  show Root (R := 2000) (iblk1 V c 0 t) (iblk1 V c 1 t) (row (iblk1 V c 2 t) 0) j
    = Root (R := 100000) (V c (Pipeline.arrRef spec1 0)) (V c (Pipeline.arrRef spec1 1)) (row (V c (Pipeline.arrRef spec1 2)) 0)
        (((cfg1.win 4).blk t).view.emb j)
  refine root_congr _ _ _ _ _ _ j _ ?_ ?_ ?_ ?_
  · funext k
    show V c (Pipeline.arrRef spec1 0) (((cfg1.win 0).blk t).view.emb (ix2 (j 0) k))
      = V c (Pipeline.arrRef spec1 0) (ix2 (((cfg1.win 4).blk t).view.emb j 0) k)
    refine congrArg _ (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * k.val = k.val; omega
  · funext k n
    show V c (Pipeline.arrRef spec1 1) (((cfg1.win 1).blk t).view.emb (ix2 k n)) = V c (Pipeline.arrRef spec1 1) (ix2 k n)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * n.val = n.val; omega
  · funext n
    show V c (Pipeline.arrRef spec1 2) (((cfg1.win 2).blk t).view.emb (ix2 (0 : Fin 1) n))
      = V c (Pipeline.arrRef spec1 2) (ix2 (0 : Fin 1) n)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * n.val = n.val; omega
  · show (j 1).val = win1_4.index t (1 : Fin 2) * 128 + 1 * (j 1).val
    omega

/-- What point t writes back to the relation array is block t of the side-by-side function of the arrays the launch
    found. -/
theorem rel_flushed (c : Dev nD) (t : Fin cfg1.N) :
    (dat1 (F := Ideal) V c).flushed 5 t = ((cfg1.win 5).blk t).view.read (Elt Ideal)
      (RelCat (R := 100000) (V c (Pipeline.arrRef spec1 0)) (V c (Pipeline.arrRef spec1 3))) := by
  show (cfg1.win 5).cut (grid1.coords t) ((dat1 (F := Ideal) V c).after 5 t) = _
  rw [after1_5, rel_block]
  obtain ⟨e00, e01, e10, e11, e20, e21, e30, e31, e32, e41, e40, e50, e51⟩ := index_facts t
  funext j
  show RelCat (R := 2000) (iblk1 V c 0 t) (iblk1 V c 3 t) j
    = RelCat (R := 100000) (V c (Pipeline.arrRef spec1 0)) (V c (Pipeline.arrRef spec1 3)) (((cfg1.win 5).blk t).view.emb j)
  refine relCat_congr _ _ _ _ j _ ?_ ?_ ?_
  · funext k
    show V c (Pipeline.arrRef spec1 0) (((cfg1.win 0).blk t).view.emb (ix2 (j 0) k))
      = V c (Pipeline.arrRef spec1 0) (ix2 (((cfg1.win 5).blk t).view.emb j 0) k)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * k.val = k.val; omega
  · intro q
    funext k n
    show V c (Pipeline.arrRef spec1 3) (((cfg1.win 3).blk t).view.emb (ix3 q k n)) = V c (Pipeline.arrRef spec1 3) (ix3 q k n)
    refine congrArg _ (funext fun a => Fin.ext ?_)
    match a with
    | ⟨0, _⟩ => show win1_3.index t (0 : Fin 3) * 2 + 1 * q.val = q.val; omega
    | ⟨1, _⟩ => show win1_3.index t (1 : Fin 3) * 128 + 1 * k.val = k.val; omega
    | ⟨2, _⟩ => show win1_3.index t (2 : Fin 3) * 128 + 1 * n.val = n.val; omega
  · show (j 1).val = win1_5.index t (1 : Fin 2) * 256 + 1 * (j 1).val
    omega

/-! ## The arrays after the last point -/

/-- An index of the root array is in point t's block iff each coordinate is in the block's range on its axis. -/
theorem root_mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v8_0).slice (win1_4.rect t)).set ↔ _
  rw [View.set_slice_whole, Rect.mem_set_unit]
  exact Iff.rfl

/-- An index of the relation array is in point t's block iff each coordinate is in the block's range on its axis. -/
theorem rel_mem_blk (t : Fin cfg1.N) (i : S100000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v8_1).slice (win1_5.rect t)).set ↔ _
  rw [View.set_slice_whole, Rect.mem_set_unit]
  exact Iff.rfl

/-- THE ROOT ARRAY after the launch: every row of the activations times the root matrix, plus the bias. -/
theorem root_final1 (c : Dev nD) :
    (dat1 (F := Ideal) V c).arrAt 4 cfg1.N
      = Root (R := 100000) (V c (Pipeline.arrRef spec1 0)) (V c (Pipeline.arrRef spec1 1)) (row (V c (Pipeline.arrRef spec1 2)) 0) :=
  (dat1 (F := Ideal) V c).arrAt_eq_of_cover 4 _ (fun t _ => root_flushed V c t) fun i => by
    have hi0 : (i 0).val < 100000 := (i 0).isLt
    have hi1 : (i 1).val < 128 := (i 1).isLt
    obtain ⟨t, ht⟩ := root_onto ⟨(i 0).val / 2000, by omega⟩
    have q0 : win1_4.index t (0 : Fin 2) = (i 0).val / 2000 := congrFun ht 0
    have q1 : win1_4.index t (1 : Fin 2) = 0 := congrFun ht 1
    refine ⟨t, flush1_4 t, ?_⟩
    rw [root_mem_blk]
    intro a
    match a with
    | ⟨0, _⟩ => show win1_4.index t (0 : Fin 2) * 2000 ≤ (i 0).val ∧ (i 0).val < win1_4.index t (0 : Fin 2) * 2000 + 2000; omega
    | ⟨1, _⟩ => show win1_4.index t (1 : Fin 2) * 128 ≤ (i 1).val ∧ (i 1).val < win1_4.index t (1 : Fin 2) * 128 + 128; omega

/-- THE RELATION ARRAY after the launch: every row of the activations times each relation's matrix, side by side. -/
theorem rel_final1 (c : Dev nD) :
    (dat1 (F := Ideal) V c).arrAt 5 cfg1.N
      = RelCat (R := 100000) (V c (Pipeline.arrRef spec1 0)) (V c (Pipeline.arrRef spec1 3)) :=
  (dat1 (F := Ideal) V c).arrAt_eq_of_cover 5 _ (fun t _ => rel_flushed V c t) fun i => by
    have hi0 : (i 0).val < 100000 := (i 0).isLt
    have hi1 : (i 1).val < 256 := (i 1).isLt
    obtain ⟨t, ht⟩ := rel_onto ⟨(i 0).val / 2000, by omega⟩
    have q0 : win1_5.index t (0 : Fin 2) = (i 0).val / 2000 := congrFun ht 0
    have q1 : win1_5.index t (1 : Fin 2) = 0 := congrFun ht 1
    refine ⟨t, flush1_5 t, ?_⟩
    rw [rel_mem_blk]
    intro a
    match a with
    | ⟨0, _⟩ => show win1_5.index t (0 : Fin 2) * 2000 ≤ (i 0).val ∧ (i 0).val < win1_5.index t (0 : Fin 2) * 2000 + 2000; omega
    | ⟨1, _⟩ => show win1_5.index t (1 : Fin 2) * 256 ≤ (i 1).val ∧ (i 1).val < win1_5.index t (1 : Fin 2) * 256 + 256; omega

end Cert.KernelIdeal.RelValue1

end
-- ==== Proof.RefDense.lean ====
/-
  The reference program's dense stages are the specification's row functions in every row.

  Each stage of the host program is a product of the whole array with a weight matrix, a bias spread over the rows,
  and the entrywise rectifier; row r of the result depends on row r of the input alone. Reading every stage one row
  at a time turns the encoder into `Enc`, the root product into `Root`, the product with relation q's weights into
  `Rel · q` and the output head into `Out`.
-/
import proofs.«109633_j5531917877297_1_alg».proof.Proof.Gen.ReferenceIdeal.Read
import proofs.«109633_j5531917877297_1_alg».proof.Proof.Spec

noncomputable section
namespace Cert.ReferenceIdeal.RefDense
open Cert.ReferenceIdeal Cert.ReferenceIdeal.Read Idealize.ShloMosaic Idealize.ShloMosaic.TcCoe Idealize.ShloMosaic.ValueIdx Cert.DenseRows Cert.Rgcn

/-- The output head in the host program's spelling, over any input array. -/
def outHost (X : FVec Ideal S100000x128 .f32) (x13 : FVec Ideal S128x128 .f32) (x14 : FVec Ideal S128 .f32)
    (x15 : FVec Ideal S128x2 .f32) (x16 : FVec Ideal S2 .f32) : FVec Ideal S100000x2 .f32 :=
  addf (Host.dotGeneral dot_S100000x128_S128x2_S100000x2_1_0_0_1_n_n none
      (select (cmpf .oge (addf (Host.dotGeneral dot_S100000x128_S128x128_S100000x128_1_0_0_1_n_n none X x13) (val_main_v144 (F := Ideal) x14)) (val_main_v146 (F := Ideal)))
        (addf (Host.dotGeneral dot_S100000x128_S128x128_S100000x128_1_0_0_1_n_n none X x13) (val_main_v144 (F := Ideal) x14))
        (mulf (val_main_v148 (F := Ideal)) (addf (Host.dotGeneral dot_S100000x128_S128x128_S100000x128_1_0_0_1_n_n none X x13) (val_main_v144 (F := Ideal) x14))))
      x15)
    (val_main_v153 (F := Ideal) x16)

/-- Row r of a product without bias: the row times the matrix. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w) r = fun n => ∑ k : Fin K, row a r k * mat w k n := by
  subst hd
  funext n
  show FloatOps.dotGeneral (DotDims.plain R K N) prec .single a w (ix2 r n) = _
  rw [Ideal.dotGeneral_apply, plain_contr_sum]
  rfl

/-- Row r of the rectifier in the host program's spelling (compare with the zero splat, keep the entry or its product
    with the slope splat) is the rectifier in every entry of row r. -/
theorem row_leaky {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (r : Fin R) :
    row (select (cmpf .oge v (broadcastInDim ⟨2, ![R, N]⟩ dims h (constant (F := Ideal) ⟨0, ![]⟩ .f32 0x00000000#32))) v
          (mulf (broadcastInDim ⟨2, ![R, N]⟩ dims h (constant (F := Ideal) ⟨0, ![]⟩ .f32 0x3C23D70A#32)) v)) r
      = leakyRow (row v r) := by
  funext n
  show Scalar.select (FloatOps.cmpf (F := Ideal) .oge (v (ix2 r n))
        (broadcastInDim ⟨2, ![R, N]⟩ dims h (constant (F := Ideal) ⟨0, ![]⟩ .f32 0x00000000#32) (ix2 r n)))
      (v (ix2 r n))
      (FloatOps.mulf (F := Ideal)
        (broadcastInDim ⟨2, ![R, N]⟩ dims h (constant (F := Ideal) ⟨0, ![]⟩ .f32 0x3C23D70A#32) (ix2 r n)) (v (ix2 r n))) = _
  rw [splat_apply, splat_apply]
  rfl

theorem ref_root (X : FVec Ideal S100000x128 .f32) (x11 : FVec Ideal S128x128 .f32) (x12 : FVec Ideal S128 .f32) :
    addf (Host.dotGeneral dot_S100000x128_S128x128_S100000x128_1_0_0_1_n_n none X x11) (val_main_v24 (F := Ideal) x12)
      = Root (R := 100000) X x11 (vec x12) := by
  refine ext_rows _ _ fun r => ?_
  unfold val_main_v24 val_main_v23
  exact row_dotGeneral_bias _ rfl none X x11 x12 _ _ r

/-- The first slab of the stacked weights, recast as a matrix, is relation 0's matrix. -/
theorem mat_v30 (x10 : FVec Ideal S2x128x128 .f32) : mat (val_main_v30 (F := Ideal) x10) = relMat x10 0 := by
  funext k n
  show val_main_v30 (F := Ideal) x10 (ix2 k n) = x10 (ix3 0 k n)
  unfold val_main_v30
  rw [shapeCast_1ab_ab_apply]
  unfold val_main_v29
  exact extractStridedSlice_apply _ x10 _ _ _ (fun a => match a with
    | ⟨0, _⟩ => rfl
    | ⟨1, _⟩ => (Nat.zero_add _).symm
    | ⟨2, _⟩ => (Nat.zero_add _).symm)

/-- The second slab of the stacked weights, recast as a matrix, is relation 1's matrix. -/
theorem mat_v58 (x10 : FVec Ideal S2x128x128 .f32) : mat (val_main_v58 (F := Ideal) x10) = relMat x10 1 := by
  funext k n
  show val_main_v58 (F := Ideal) x10 (ix2 k n) = x10 (ix3 1 k n)
  unfold val_main_v58
  rw [shapeCast_1ab_ab_apply]
  unfold val_main_v57
  exact extractStridedSlice_apply _ x10 _ _ _ (fun a => match a with
    | ⟨0, _⟩ => rfl
    | ⟨1, _⟩ => (Nat.zero_add _).symm
    | ⟨2, _⟩ => (Nat.zero_add _).symm)

theorem ref_rel0 (X : FVec Ideal S100000x128 .f32) (x10 : FVec Ideal S2x128x128 .f32) :
    Host.dotGeneral (φ₂ := .f32) dot_S100000x128_S128x128_S100000x128_1_0_0_1_n_n none X (val_main_v30 (F := Ideal) x10)
      = Rel (R := 100000) X x10 0 := by
  refine ext_rows _ _ fun r => ?_
  refine (row_dotGeneral _ rfl none X (val_main_v30 (F := Ideal) x10) r).trans ?_
  rw [mat_v30]
  rfl

theorem ref_rel1 (X : FVec Ideal S100000x128 .f32) (x10 : FVec Ideal S2x128x128 .f32) :
    Host.dotGeneral (φ₂ := .f32) dot_S100000x128_S128x128_S100000x128_1_0_0_1_n_n none X (val_main_v58 (F := Ideal) x10)
      = Rel (R := 100000) X x10 1 := by
  refine ext_rows _ _ fun r => ?_
  refine (row_dotGeneral _ rfl none X (val_main_v58 (F := Ideal) x10) r).trans ?_
  rw [mat_v58]
  rfl

theorem ref_enc (x0 : FVec Ideal S100000x768 .f32) (x6 : FVec Ideal S768x128 .f32) (x7 : FVec Ideal S128 .f32)
    (x8 : FVec Ideal S128x128 .f32) (x9 : FVec Ideal S128 .f32) :
    val_main_v21 (F := Ideal) x0 x6 x7 x8 x9 = Enc (R := 100000) x0 x6 (vec x7) x8 (vec x9) := by
  refine ext_rows _ _ fun r => ?_
  have h7 : row (val_main_v7 (F := Ideal) x0 x6 x7) r = affine (row x0 r) (mat x6) (vec x7) := by
    unfold val_main_v7 val_main_v6 val_main_v5 val_main_v4
    exact row_dotGeneral_bias _ rfl none x0 x6 x7 _ _ r
  have h12 : row (val_main_v12 (F := Ideal) x0 x6 x7) r = leakyRow (affine (row x0 r) (mat x6) (vec x7)) := by
    unfold val_main_v12 val_main_v9 val_main_v11 val_main_v8 val_main_v10 val_main_cst val_main_cst_0
    exact (row_leaky _ _ _ r).trans (congrArg leakyRow h7)
  have h16 : row (val_main_v16 (F := Ideal) x0 x6 x7 x8 x9) r
      = affine (leakyRow (affine (row x0 r) (mat x6) (vec x7))) (mat x8) (vec x9) := by
    unfold val_main_v16 val_main_v15 val_main_v14 val_main_v13
    exact (row_dotGeneral_bias _ rfl none _ x8 x9 _ _ r).trans (congrArg (fun h => affine h (mat x8) (vec x9)) h12)
  unfold val_main_v21 val_main_v18 val_main_v20 val_main_v17 val_main_v19 val_main_cst_1 val_main_cst_2
  exact (row_leaky _ _ _ r).trans (congrArg leakyRow h16)

theorem ref_out (X : FVec Ideal S100000x128 .f32) (x13 : FVec Ideal S128x128 .f32) (x14 : FVec Ideal S128 .f32)
    (x15 : FVec Ideal S128x2 .f32) (x16 : FVec Ideal S2 .f32) :
    outHost X x13 x14 x15 x16 = Out (R := 100000) X x13 (vec x14) x15 (vec x16) := by
  refine ext_rows _ _ fun r => ?_
  have h1 : row (addf (Host.dotGeneral dot_S100000x128_S128x128_S100000x128_1_0_0_1_n_n none X x13) (val_main_v144 (F := Ideal) x14)) r
      = affine (row X r) (mat x13) (vec x14) := by
    unfold val_main_v144 val_main_v143
    exact row_dotGeneral_bias _ rfl none X x13 x14 _ _ r
  unfold outHost val_main_v153 val_main_v152 val_main_v146 val_main_v148 val_main_cst_26 val_main_cst_27
  refine (row_dotGeneral_bias _ rfl none _ x15 x16 _ _ r).trans ?_
  show affine (row _ r) (mat x15) (vec x16)
      = affine (leakyRow (affine (row X r) (mat x13) (vec x14))) (mat x15) (vec x16)
  refine congrArg (fun h => affine h (mat x15) (vec x16)) ?_
  exact (row_leaky _ _ _ r).trans (congrArg leakyRow h1)

end Cert.ReferenceIdeal.RefDense
end
-- ==== Proof.RelSplit.lean ====
/-
  Two layout facts.

  (a) The two relations' products, held side by side in 256 lanes, recast to [R, 2, 128], sliced at relation q and
      recast to [R, 128], are relation q's product: a recast is row-major re-indexing, so entry (r, q, n) of the
      recast array is entry (r, 128·q + n) of the side-by-side array, which is lane n of relation q's block.
  (b) A vector recast as a one-row matrix has that vector as its row.
-/
import proofs.«109633_j5531917877297_1_alg».proof.Proof.Gen.KernelIdeal
import proofs.«109633_j5531917877297_1_alg».proof.Proof.Spec
import Idealize.ShloMosaic.Lib.Pipeline.Value

noncomputable section
namespace Cert.KernelIdeal.RelSplit
open Cert.KernelIdeal Idealize.ShloMosaic Idealize.ShloMosaic.TcCoe Idealize.ShloMosaic.ValueIdx Cert.DenseRows Cert.Rgcn

/-- Entry (r, 0, n) of the side-by-side array recast to [R, 2, 128] is entry (r, n) of relation 0's product. -/
theorem relcat_read0 {R : ℕ} (X : (⟨2, ![R, 128]⟩ : Shape).Idx → EReal) (W : (⟨3, ![2, 128, 128]⟩ : Shape).Idx → EReal)
    (h1 : (⟨2, ![R, 256]⟩ : Shape).ShapeCasts ⟨3, ![R, 2, 128]⟩) (r : Fin R) (n : Fin 128) :
    shapeCast ⟨3, ![R, 2, 128]⟩ (RelCat X W) h1 (ix3 r (0 : Fin 2) n) = Rel X W 0 (ix2 r n) := by
  have hn := n.isLt
  rw [shapeCast_apply (RelCat X W) h1 (ix3 r (0 : Fin 2) n) (ix2 r (⟨n.val, by omega⟩ : Fin 256)) (by
    rw [Shape.rowMajor_val_two, Shape.rowMajor_val_three]
    show r.val * 256 + n.val = (r.val * 2 + 0) * 128 + n.val
    omega)]
  show (if h : n.val < 128 then relRow (row X r) (relMat W 0) ⟨n.val, h⟩
      else relRow (row X r) (relMat W 1) ⟨n.val - 128, _⟩) = relRow (row X r) (relMat W 0) n
  rw [dif_pos hn]

/-- Entry (r, 1, n) of the side-by-side array recast to [R, 2, 128] is entry (r, n) of relation 1's product. -/
theorem relcat_read1 {R : ℕ} (X : (⟨2, ![R, 128]⟩ : Shape).Idx → EReal) (W : (⟨3, ![2, 128, 128]⟩ : Shape).Idx → EReal)
    (h1 : (⟨2, ![R, 256]⟩ : Shape).ShapeCasts ⟨3, ![R, 2, 128]⟩) (r : Fin R) (n : Fin 128) :
    shapeCast ⟨3, ![R, 2, 128]⟩ (RelCat X W) h1 (ix3 r (1 : Fin 2) n) = Rel X W 1 (ix2 r n) := by
  have hn := n.isLt
  rw [shapeCast_apply (RelCat X W) h1 (ix3 r (1 : Fin 2) n) (ix2 r (⟨128 + n.val, by omega⟩ : Fin 256)) (by
    rw [Shape.rowMajor_val_two, Shape.rowMajor_val_three]
    show r.val * 256 + (128 + n.val) = (r.val * 2 + 1) * 128 + n.val
    omega)]
  show (if h : 128 + n.val < 128 then relRow (row X r) (relMat W 0) ⟨128 + n.val, h⟩
      else relRow (row X r) (relMat W 1) ⟨128 + n.val - 128, _⟩) = relRow (row X r) (relMat W 1) n
  rw [dif_neg (by omega)]
  exact congrArg (relRow (row X r) (relMat W 1)) (Fin.ext (by show 128 + n.val - 128 = n.val; omega))

theorem relcat_slice0 (X : FVec Ideal S100000x128 .f32) (W : FVec Ideal S2x128x128 .f32)
    (h1 : S100000x256.ShapeCasts S100000x2x128) (hs : S100000x2x128.Slices ![0, 0, 0] S100000x1x128)
    (h2 : S100000x1x128.ShapeCasts S100000x128) :
    shapeCast S100000x128 (extractStridedSlice S100000x1x128 ![0, 0, 0]
        (shapeCast S100000x2x128 (RelCat (R := 100000) X W) h1) hs) h2
      = Rel (R := 100000) X W 0 := by
  refine ext_rows _ _ fun r => ?_
  funext n
  show shapeCast S100000x128 (extractStridedSlice S100000x1x128 ![0, 0, 0]
      (shapeCast S100000x2x128 (RelCat (R := 100000) X W) h1) hs) h2 (ix2 r n) = Rel (R := 100000) X W 0 (ix2 r n)
  refine (shapeCast_apply _ h2 (ix2 r n) (ix3 r (0 : Fin 1) n) (by
    rw [Shape.rowMajor_val_three, Shape.rowMajor_val_two]
    show (r.val * 1 + 0) * 128 + n.val = r.val * 128 + n.val
    omega)).trans ?_
  refine (extractStridedSlice_apply ![0, 0, 0] _ hs (ix3 r (0 : Fin 1) n) (ix3 r (0 : Fin 2) n) (fun a =>
    match a with
    | ⟨0, _⟩ => (Nat.zero_add _).symm
    | ⟨1, _⟩ => rfl
    | ⟨2, _⟩ => (Nat.zero_add _).symm)).trans ?_
  exact relcat_read0 X W h1 r n

theorem relcat_slice1 (X : FVec Ideal S100000x128 .f32) (W : FVec Ideal S2x128x128 .f32)
    (h1 : S100000x256.ShapeCasts S100000x2x128) (hs : S100000x2x128.Slices ![0, 1, 0] S100000x1x128)
    (h2 : S100000x1x128.ShapeCasts S100000x128) :
    shapeCast S100000x128 (extractStridedSlice S100000x1x128 ![0, 1, 0]
        (shapeCast S100000x2x128 (RelCat (R := 100000) X W) h1) hs) h2
      = Rel (R := 100000) X W 1 := by
  refine ext_rows _ _ fun r => ?_
  funext n
  show shapeCast S100000x128 (extractStridedSlice S100000x1x128 ![0, 1, 0]
      (shapeCast S100000x2x128 (RelCat (R := 100000) X W) h1) hs) h2 (ix2 r n) = Rel (R := 100000) X W 1 (ix2 r n)
  refine (shapeCast_apply _ h2 (ix2 r n) (ix3 r (0 : Fin 1) n) (by
    rw [Shape.rowMajor_val_three, Shape.rowMajor_val_two]
    show (r.val * 1 + 0) * 128 + n.val = r.val * 128 + n.val
    omega)).trans ?_
  refine (extractStridedSlice_apply ![0, 1, 0] _ hs (ix3 r (0 : Fin 1) n) (ix3 r (1 : Fin 2) n) (fun a =>
    match a with
    | ⟨0, _⟩ => (Nat.zero_add _).symm
    | ⟨1, _⟩ => rfl
    | ⟨2, _⟩ => (Nat.zero_add _).symm)).trans ?_
  exact relcat_read1 X W h1 r n

/-- A vector [n] recast as a one-row matrix [1, n] has that vector as its row. -/
theorem row_cast_vec128 (b : FVec Ideal S128 .f32) (h : S128.ShapeCasts S1x128) : row (shapeCast S1x128 b h) 0 = vec b := by
  funext n
  exact shapeCast_a_1a_apply b h 0 n
theorem row_cast_vec2 (b : FVec Ideal S2 .f32) (h : S2.ShapeCasts S1x2) : row (shapeCast S1x2 b h) 0 = vec b := by
  funext n
  exact shapeCast_a_1a_apply b h 0 n

end Cert.KernelIdeal.RelSplit
end
-- ==== Proof.Stages1.lean ====
/-
  The first two launches read: the encoder's output array and the first relation launch's two output arrays are the
  reference program's stages of the launch contents of the arguments.

  Each launch's output array is its specification function of the arrays the launch finds (the blocks-to-array
  modules); those arrays are arguments still at their launch contents, a bias recast as a one-row matrix, or the
  previous launch's output; and the specification function is the reference's own stage (RefDense).
-/
import proofs.«109633_j5531917877297_1_alg».proof.Proof.KeptTable
import proofs.«109633_j5531917877297_1_alg».proof.Proof.EncBlocks
import proofs.«109633_j5531917877297_1_alg».proof.Proof.RelBlocks1
import proofs.«109633_j5531917877297_1_alg».proof.Proof.RefDense
import proofs.«109633_j5531917877297_1_alg».proof.Proof.RelSplit
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Rgcn Cert.DenseRows Cert.ReferenceIdeal.Read Cert.ReferenceIdeal.RefDense Cert.KernelIdeal.RelSplit

variable (m : (ℓ : Loc nD τ sig) → Buf (Elt Ideal) ℓ) (ρ : Dev nD → PrngReg)

/-- The encoder's output: the reference's twice-rectified dense stage. -/
theorem W2_main_v6 (c : Dev nD) :
    W2 m ρ c (Proc.devRef .tc main_v6) = val_main_v21 (F := Ideal) (m ((c : Thread nD τ).loc main_arg0)) (m ((c : Thread nD τ).loc main_arg6)) (m ((c : Thread nD τ).loc main_arg7)) (m ((c : Thread nD τ).loc main_arg8)) (m ((c : Thread nD τ).loc main_arg9)) := by
  refine ((W2_arr m ρ c 5).trans (Cert.KernelIdeal.EncValue.enc_final (V1 m ρ) c)).trans ?_
  show Enc (R := 100000) (W1 m ρ c (Proc.devRef .tc main_arg0)) (W1 m ρ c (Proc.devRef .tc main_arg6))
      (row (W1 m ρ c (Proc.devRef .tc main_v4)) 0) (W1 m ρ c (Proc.devRef .tc main_arg8))
      (row (W1 m ρ c (Proc.devRef .tc main_v5)) 0) = _
  rw [W1_main_arg0, W1_main_arg6, W1_main_v4, W1_main_arg8, W1_main_v5, row_cast_vec128, row_cast_vec128]
  exact (ref_enc _ _ _ _ _).symm

/-- The host stretch before the first relation launch does not touch the encoder's output. -/
theorem W3_main_v6 (c : Dev nD) :
    W3 m ρ c (Proc.devRef .tc main_v6) = val_main_v21 (F := Ideal) (m ((c : Thread nD τ).loc main_arg0)) (m ((c : Thread nD τ).loc main_arg6)) (m ((c : Thread nD τ).loc main_arg7)) (m ((c : Thread nD τ).loc main_arg8)) (m ((c : Thread nD τ).loc main_arg9)) :=
  (by host_keeps : W3 m ρ c (Proc.devRef .tc main_v6) = W2 m ρ c (Proc.devRef .tc main_v6)).trans (W2_main_v6 m ρ c)

/-- The convolution's bias, recast as a one-row matrix before the first relation launch. -/
theorem W3_main_v7 (c : Dev nD) : W3 m ρ c (Proc.devRef .tc main_v7) = shapeCast S1x128 (m ((c : Thread nD τ).loc main_arg12)) shapeCasts_S128_S1x128 :=
  (by show StableHlo.after hostOps1 (W2 m ρ c) (Proc.devRef .tc main_v7) = _; after_results; try rfl :
    W3 m ρ c (Proc.devRef .tc main_v7) = shapeCast S1x128 (W2 m ρ c (Proc.devRef .tc main_arg12)) shapeCasts_S128_S1x128).trans
    (by rw [W2_main_arg12])

/-- The first relation launch's root output: the reference's root stage. -/
theorem W4_main_v8_0 (c : Dev nD) :
    W4 m ρ c (Proc.devRef .tc main_v8_0) = val_main_v25 (F := Ideal) (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) := by
  refine ((W4_arr m ρ c 4).trans (Cert.KernelIdeal.RelValue1.root_final1 (V3 m ρ) c)).trans ?_
  show Root (R := 100000) (W3 m ρ c (Proc.devRef .tc main_v6)) (W3 m ρ c (Proc.devRef .tc main_arg11))
      (row (W3 m ρ c (Proc.devRef .tc main_v7)) 0) = _
  rw [W3_main_v6, W3_main_arg11, W3_main_v7, row_cast_vec128]
  exact (ref_root _ _ _).symm

/-- The first relation launch's second output: the two relations' products of the encoder's output, side by side. -/
theorem W4_main_v8_1 (c : Dev nD) :
    W4 m ρ c (Proc.devRef .tc main_v8_1) = RelCat (R := 100000) (val_main_v21 (F := Ideal) (m ((c : Thread nD τ).loc main_arg0)) (m ((c : Thread nD τ).loc main_arg6)) (m ((c : Thread nD τ).loc main_arg7)) (m ((c : Thread nD τ).loc main_arg8)) (m ((c : Thread nD τ).loc main_arg9))) (m ((c : Thread nD τ).loc main_arg10)) := by
  refine ((W4_arr m ρ c 5).trans (Cert.KernelIdeal.RelValue1.rel_final1 (V3 m ρ) c)).trans ?_
  show RelCat (R := 100000) (W3 m ρ c (Proc.devRef .tc main_v6)) (W3 m ρ c (Proc.devRef .tc main_arg10)) = _
  rw [W3_main_v6, W3_main_arg10]

end Cert.KernelIdeal.Value

end
-- ==== Proof.HostGlue1.lean ====
/-
  The host stretch between two launches of the relation kernel: the edge gather, the masked scatter-add and the degree
  normalisation of one graph convolution.

  The stretch reads the launch's two outputs — the root term and the two relations' products side by side — together
  with the two rows of the edge list and the edge types. Recast to [rows, 2, 128], sliced at a relation and recast
  back, the side-by-side array is that relation's product (RelSplit), which is the reference's own matrix product
  (RefDense); every other operation of the stretch is, operation for operation, the reference's. So if the launch's
  outputs are the reference's stages, the stretch's result is the reference's next stage.
-/
import proofs.«109633_j5531917877297_1_alg».proof.Proof.Gen.KernelIdeal.Frame
import proofs.«109633_j5531917877297_1_alg».proof.Proof.Gen.ReferenceIdeal.Read
import proofs.«109633_j5531917877297_1_alg».proof.Proof.RefDense
import proofs.«109633_j5531917877297_1_alg».proof.Proof.RelSplit
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Rgcn Cert.DenseRows

variable (m : (ℓ : Loc nD τ sig) → Buf (Elt Ideal) ℓ) (ρ : Dev nD → PrngReg)

set_option maxHeartbeats 4000000 in
/-- The convolution's result from the launch's two outputs, the edge rows and the edge types. -/
theorem conv1_result (c : Dev nD) (x0 : FVec Ideal S100000x768 .f32) (x4 : IVec S2x1600000 32) (x5 : IVec S1600000 32) (x6 : FVec Ideal S768x128 .f32) (x7 : FVec Ideal S128 .f32) (x8 : FVec Ideal S128x128 .f32) (x9 : FVec Ideal S128 .f32) (x10 : FVec Ideal S2x128x128 .f32) (x11 : FVec Ideal S128x128 .f32) (x12 : FVec Ideal S128 .f32)
    (hroot : W4 m ρ c (Proc.devRef .tc main_v8_0) = Cert.ReferenceIdeal.Read.val_main_v25 (F := Ideal) x0 x6 x7 x8 x9 x11 x12)
    (hcat : W4 m ρ c (Proc.devRef .tc main_v8_1) = RelCat (R := 100000) (Cert.ReferenceIdeal.Read.val_main_v21 (F := Ideal) x0 x6 x7 x8 x9) x10)
    (hsrc : W4 m ρ c (Proc.devRef .tc main_v1) = Cert.ReferenceIdeal.Read.val_main_v1 (F := Ideal) x4)
    (hdst : W4 m ρ c (Proc.devRef .tc main_v3) = Cert.ReferenceIdeal.Read.val_main_v3 (F := Ideal) x4)
    (hty : W4 m ρ c (Proc.devRef .tc main_arg5) = x5) :
    W5 m ρ c (Proc.devRef .tc main_v63) = Cert.ReferenceIdeal.Read.val_main_v81 (F := Ideal) x0 x4 x5 x6 x7 x8 x9 x10 x11 x12 := by
  show StableHlo.after hostOps2 (W4 m ρ c) (Proc.devRef .tc main_v63) = _
  after_results_simp
  rw [hroot, hcat, hsrc, hdst, hty]
  have e0 : (fun i => shapeCast main_v14.ty.shape (extractStridedSlice S100000x1x128 ![0, 0, 0]
        (fun i => shapeCast main_v9.ty.shape (RelCat (R := 100000) (Cert.ReferenceIdeal.Read.val_main_v21 (F := Ideal) x0 x6 x7 x8 x9) x10) shapeCasts_S100000x256_S100000x2x128 i)
        slices_S100000x2x128_S100000x1x128_0_0_0) shapeCasts_S100000x1x128_S100000x128 i)
      = Cert.ReferenceIdeal.Read.val_main_v31 (F := Ideal) x0 x6 x7 x8 x9 x10 :=
    (Cert.KernelIdeal.RelSplit.relcat_slice0 _ x10 _ _ _).trans (Cert.ReferenceIdeal.RefDense.ref_rel0 _ x10).symm
  have e1 : (fun i => shapeCast main_v41.ty.shape (extractStridedSlice S100000x1x128 ![0, 1, 0]
        (fun i => shapeCast main_v9.ty.shape (RelCat (R := 100000) (Cert.ReferenceIdeal.Read.val_main_v21 (F := Ideal) x0 x6 x7 x8 x9) x10) shapeCasts_S100000x256_S100000x2x128 i)
        slices_S100000x2x128_S100000x1x128_0_1_0) shapeCasts_S100000x1x128_S100000x128 i)
      = Cert.ReferenceIdeal.Read.val_main_v59 (F := Ideal) x0 x6 x7 x8 x9 x10 :=
    (Cert.KernelIdeal.RelSplit.relcat_slice1 _ x10 _ _ _).trans (Cert.ReferenceIdeal.RefDense.ref_rel1 _ x10).symm
  rw [e0, e1]
  rfl

end Cert.KernelIdeal.Value

end
-- ==== Proof.RelBlocks2.lean ====
/-
  The relation-transform launch, read as arrays.

  Each point of the 50-point grid takes one block of 2000 rows of the activations, multiplies every row by the root
  matrix and adds the bias (the root output, 128 lanes), and multiplies every row by each of the two relation matrices
  (the relation output: relation 0 in lanes 0–127, relation 1 in lanes 128–255). Row r of every output depends on row
  r of the activations alone, so what a point leaves in its output block is the block of ONE whole-array function of
  the arguments, and the blocks tile the arrays: after the last point the root array is `Root` and the relation
  array is `RelCat` of the arrays the launch found.
-/
import Idealize.ShloMosaic.Lib.Pipeline.Value
import Idealize.ShloMosaic.Lib.Pipeline.FrameBody
import Idealize.ShloMosaic.Lib.ValueLayout
import Idealize.ShloMosaic.Lib.ValueIdx
import Idealize.ShloMosaic.PureOps.Ideal.Laws
import proofs.«109633_j5531917877297_1_alg».proof.Proof.Gen.KernelIdeal.Frame
import proofs.«109633_j5531917877297_1_alg».proof.Proof.Spec
import proofs.«109633_j5531917877297_1_alg».proof.Proof.LibBlockRows

set_option maxRecDepth 16384

noncomputable section

namespace Cert.KernelIdeal.RelValue2

open Cert.KernelIdeal Cert.KernelIdeal.Gen Idealize.ShloMosaic Idealize.ShloMosaic.TcCoe Idealize.SL.Sem Idealize.ShloMosaic.ValueIdx Cert.DenseRows Cert.Rgcn
open Idealize.ShloMosaic.Pipeline (Dat Cfg Window)

/-! ## The body on one block: every row of the payloads is the specification's row -/

/-- The dimension numbers of the body's products are the plain ones. -/
theorem dot_plain : dot_S2000x128_S128x128_S2000x128_1_0_0_1_n_n = DotDims.plain 2000 128 128 := rfl

/-- The root payload of a block of rows: every row times the root matrix, plus the bias row. -/
theorem root_body (x : Vec Ideal S2000x128 .f32) (W : Vec Ideal S128x128 .f32) (b : Vec Ideal S1x128 .f32) :
    k2_pay2 (F := Ideal) x W b = Root (R := 2000) x W (row b (0 : Fin 1)) := by
  refine ext_rows _ _ fun r => ?_
  unfold k2_pay2 k2_pay1
  refine (LibBlockRows.row_matmul_rowbias _ dot_plain none _ _ _ _ r).trans ?_
  rw [shapeCast_self, shapeCast_self]
  rfl

/-- A relation payload of a block of rows at a row and a lane: the row times the matrix the loaded slab holds. -/
theorem rel_body3 (x : Vec Ideal S2000x128 .f32) (S : Vec Ideal S1x128x128 .f32) (r : Fin 2000) (n : Fin 128) :
    k2_pay3 (F := Ideal) x S (ix2 r n) = relRow (row x r) (fun k n => S (ix3 (0 : Fin 1) k n)) n := by
  unfold k2_pay3 k2_pay1
  show FloatOps.matmul dot_S2000x128_S128x128_S2000x128_1_0_0_1_n_n none _ _ (constant (F := Ideal) S2000x128 .f32 0x00000000#32) (ix2 r n) = _
  rw [Ideal.matmul_constant_zero_apply, dot_plain, plain_contr_sum]
  refine Finset.sum_congr rfl fun k _ => ?_
  rw [shapeCast_self]
  show x (ix2 r k) * shapeCast S128x128 S shapeCasts_S1x128x128_S128x128 (ix2 k n) = _
  rw [shapeCast_1ab_ab_apply]
  rfl

/-- The other relation payload: the same product, with the other loaded slab. -/
theorem rel_body4 (x : Vec Ideal S2000x128 .f32) (S : Vec Ideal S1x128x128 .f32) (r : Fin 2000) (n : Fin 128) :
    k2_pay4 (F := Ideal) x S (ix2 r n) = relRow (row x r) (fun k n => S (ix3 (0 : Fin 1) k n)) n := by
  unfold k2_pay4 k2_pay1
  show FloatOps.matmul dot_S2000x128_S128x128_S2000x128_1_0_0_1_n_n none _ _ (constant (F := Ideal) S2000x128 .f32 0x00000000#32) (ix2 r n) = _
  rw [Ideal.matmul_constant_zero_apply, dot_plain, plain_contr_sum]
  refine Finset.sum_congr rfl fun k _ => ?_
  rw [shapeCast_self]
  show x (ix2 r k) * shapeCast S128x128 S shapeCasts_S1x128x128_S128x128 (ix2 k n) = _
  rw [shapeCast_1ab_ab_apply]
  rfl

/-- The slab the body loads first is relation 0's matrix. -/
theorem slab0 (W : Vec Ideal S2x128x128 .f32) :
    (fun (k n : Fin 128) => View.ld W r2_3 (ix3 (0 : Fin 1) k n)) = relMat W 0 := by
  funext k n
  show W (r2_3.idx (ix3 (0 : Fin 1) k n)) = W (ix3 (0 : Fin 2) k n)
  refine congrArg W (funext fun a => Fin.ext ?_)
  match a with
  | ⟨0, _⟩ => rfl
  | ⟨1, _⟩ => show 0 + 1 * k.val = k.val; omega
  | ⟨2, _⟩ => show 0 + 1 * n.val = n.val; omega

/-- The slab the body loads second is relation 1's matrix. -/
theorem slab1 (W : Vec Ideal S2x128x128 .f32) :
    (fun (k n : Fin 128) => View.ld W r2_5 (ix3 (0 : Fin 1) k n)) = relMat W 1 := by
  funext k n
  show W (r2_5.idx (ix3 (0 : Fin 1) k n)) = W (ix3 (1 : Fin 2) k n)
  refine congrArg W (funext fun a => Fin.ext ?_)
  match a with
  | ⟨0, _⟩ => rfl
  | ⟨1, _⟩ => show 0 + 1 * k.val = k.val; omega
  | ⟨2, _⟩ => show 0 + 1 * n.val = n.val; omega

/-! ## The specification at an index -/

/-- The side-by-side array in a lane below 128 is relation 0's product. -/
theorem relCat_lo {R : ℕ} (x : (⟨2, ![R, 128]⟩ : Shape).Idx → EReal) (W : (⟨3, ![2, 128, 128]⟩ : Shape).Idx → EReal)
    (i : (⟨2, ![R, 256]⟩ : Shape).Idx) (r : Fin R) (q : Fin 128) (h0 : (i 0).val = r.val) (h1 : (i 1).val = q.val) :
    RelCat x W i = relRow (row x r) (relMat W 0) q := by
  have e0 : i 0 = r := Fin.ext h0
  have hq := q.isLt
  show (if h : (i 1).val < 128 then relRow (row x (i 0)) (relMat W 0) ⟨(i 1).val, h⟩
      else relRow (row x (i 0)) (relMat W 1) ⟨(i 1).val - 128, _⟩) = _
  rw [dif_pos (by omega), e0]
  exact congrArg _ (Fin.ext h1)

/-- The side-by-side array in a lane from 128 on is relation 1's product. -/
theorem relCat_hi {R : ℕ} (x : (⟨2, ![R, 128]⟩ : Shape).Idx → EReal) (W : (⟨3, ![2, 128, 128]⟩ : Shape).Idx → EReal)
    (i : (⟨2, ![R, 256]⟩ : Shape).Idx) (r : Fin R) (q : Fin 128) (h0 : (i 0).val = r.val) (h1 : (i 1).val = 128 + q.val) :
    RelCat x W i = relRow (row x r) (relMat W 1) q := by
  have e0 : i 0 = r := Fin.ext h0
  show (if h : (i 1).val < 128 then relRow (row x (i 0)) (relMat W 0) ⟨(i 1).val, h⟩
      else relRow (row x (i 0)) (relMat W 1) ⟨(i 1).val - 128, _⟩) = _
  rw [dif_neg (by omega), e0]
  exact congrArg _ (Fin.ext (by show (i 1).val - 128 = q.val; omega))

/-- The side-by-side arrays of two pairs of arguments agree at two indices of the same lane when the rows there
    and the two relation matrices agree. -/
theorem relCat_congr {R R' : ℕ} (x : (⟨2, ![R, 128]⟩ : Shape).Idx → EReal) (x' : (⟨2, ![R', 128]⟩ : Shape).Idx → EReal)
    (W W' : (⟨3, ![2, 128, 128]⟩ : Shape).Idx → EReal)
    (i : (⟨2, ![R, 256]⟩ : Shape).Idx) (i' : (⟨2, ![R', 256]⟩ : Shape).Idx)
    (hrow : row x (i 0) = row x' (i' 0)) (hW : ∀ q, relMat W q = relMat W' q) (hl : (i 1).val = (i' 1).val) :
    RelCat x W i = RelCat x' W' i' := by
  by_cases h : (i 1).val < 128
  · rw [relCat_lo x W i (i 0) ⟨(i 1).val, h⟩ rfl rfl, relCat_lo x' W' i' (i' 0) ⟨(i 1).val, h⟩ rfl hl.symm, hrow, hW]
  · have hlt : (i 1).val < 256 := (i 1).isLt
    rw [relCat_hi x W i (i 0) ⟨(i 1).val - 128, by omega⟩ rfl (by show _ = 128 + ((i 1).val - 128); omega),
      relCat_hi x' W' i' (i' 0) ⟨(i 1).val - 128, by omega⟩ rfl (by show _ = 128 + ((i 1).val - 128); omega), hrow, hW]

/-- The root arrays of two triples of arguments agree at two indices of the same lane when the rows there, the
    matrices and the bias rows agree. -/
theorem root_congr {R R' : ℕ} (x : (⟨2, ![R, 128]⟩ : Shape).Idx → EReal) (x' : (⟨2, ![R', 128]⟩ : Shape).Idx → EReal)
    (W W' : (⟨2, ![128, 128]⟩ : Shape).Idx → EReal) (b b' : Fin 128 → EReal)
    (i : (⟨2, ![R, 128]⟩ : Shape).Idx) (i' : (⟨2, ![R', 128]⟩ : Shape).Idx)
    (hrow : row x (i 0) = row x' (i' 0)) (hW : mat W = mat W') (hb : b = b') (hl : (i 1).val = (i' 1).val) :
    Root x W b i = Root x' W' b' i' := by
  show affine (row x (i 0)) (mat W) b (i 1) = affine (row x' (i' 0)) (mat W') b' (i' 1)
  rw [hrow, hW, hb]
  exact congrArg _ (Fin.ext hl)

/-! ## What the body leaves in its two output buffers -/

theorem zeros2 : (![0, 0] : Fin 2 → Nat) = fun _ => 0 := funext fun a => by fin_cases a <;> rfl

/-- The root output's buffer after the body: the root function of the blocks. -/
theorem root_block (x0 : Vec Ideal S2000x128 .f32) (x1 : Vec Ideal S128x128 .f32) (x2 : Vec Ideal S1x128 .f32)
    (x3 : Vec Ideal S2x128x128 .f32) :
    out2_4 (F := Ideal) x0 x1 x2 x3 = Root (R := 2000) x0 x1 (row x2 (0 : Fin 1)) := by
  unfold out2_4
  rw [View.canon_unit_zero zeros2]
  simp only [View.ld_unit_zero (S := S2000x128) zeros2, View.ld_unit_zero (S := S128x128) zeros2,
    View.ld_unit_zero (S := S1x128) zeros2]
  exact root_body _ _ _

/-- The relation output's buffer after the body's two stores: the side-by-side function of the blocks. -/
theorem rel_block (x0 : Vec Ideal S2000x128 .f32) (x1 : Vec Ideal S128x128 .f32) (x2 : Vec Ideal S1x128 .f32)
    (x3 : Vec Ideal S2x128x128 .f32) :
    out2_5 (F := Ideal) x0 x1 x2 x3 = RelCat (R := 2000) x0 x3 := by
  unfold out2_5
  simp only [View.ld_unit_zero (S := S2000x128) zeros2]
  funext y
  refine View.canon_apply_of_pieces (Val := Elt Ideal) (RelCat (R := 2000) x0 x3) _ ?_ y (cover2_5 _ _ y)
  intro p hp xi
  rcases List.mem_cons.mp hp with rfl | hp
  · obtain ⟨r, q, rfl⟩ : ∃ (r : Fin 2000) (q : Fin 128), xi = ix2 r q := ⟨xi 0, xi 1, eq_ix2 xi⟩
    show k2_pay4 (F := Ideal) x0 (View.ld x3 r2_5) (ix2 r q) = _
    rw [rel_body4, slab1]
    refine (relCat_hi x0 x3 _ r q ?_ ?_).symm
    · show 0 + 1 * r.val = r.val; omega
    · show 128 + 1 * q.val = 128 + q.val; omega
  · rcases List.mem_singleton.mp hp with rfl
    obtain ⟨r, q, rfl⟩ : ∃ (r : Fin 2000) (q : Fin 128), xi = ix2 r q := ⟨xi 0, xi 1, eq_ix2 xi⟩
    show k2_pay3 (F := Ideal) x0 (View.ld x3 r2_3) (ix2 r q) = _
    rw [rel_body3, slab0]
    refine (relCat_lo x0 x3 _ r q ?_ ?_).symm
    · show 0 + 1 * r.val = r.val; omega
    · show 0 + 1 * q.val = q.val; omega

/-! ## The blocks in the arrays -/

variable (V : (c : Dev nD) → (b : Ref sig .tc) → Buf (Elt Ideal) ((c : Thread nD τ).loc b))

/-- The index maps, decided over the grid: the activations' block and both outputs' blocks sit at the same row block
    and at lane block 0, the weights' and the bias's blocks are their whole arrays, and the row block is below 50. -/
theorem index_facts : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = 0 ∧ win2_3.index t (1 : Fin 3) = 0 ∧ win2_3.index t (2 : Fin 3) = 0
    ∧ win2_4.index t (1 : Fin 2) = 0 ∧ win2_4.index t (0 : Fin 2) ≤ 49
    ∧ win2_5.index t (0 : Fin 2) = win2_4.index t (0 : Fin 2) ∧ win2_5.index t (1 : Fin 2) = 0 :=
  (by decide +kernel : ∀ t : Fin grid2.N, _)

/-- Every row block of the root output is some point's. -/
theorem root_onto : ∀ q : Fin 50, ∃ t : Fin cfg2.N, win2_4.index t = ![q.val, 0] :=
  (by decide +kernel : ∀ q : Fin 50, ∃ t : Fin grid2.N, win2_4.index t = ![q.val, 0])

/-- Every row block of the relation output is some point's. -/
theorem rel_onto : ∀ q : Fin 50, ∃ t : Fin cfg2.N, win2_5.index t = ![q.val, 0] :=
  (by decide +kernel : ∀ q : Fin 50, ∃ t : Fin grid2.N, win2_5.index t = ![q.val, 0])

/-- What point t writes back to the root array is block t of the root function of the arrays the launch found. -/
theorem root_flushed (c : Dev nD) (t : Fin cfg2.N) :
    (dat2 (F := Ideal) V c).flushed 4 t = ((cfg2.win 4).blk t).view.read (Elt Ideal)
      (Root (R := 100000) (V c (Pipeline.arrRef spec2 0)) (V c (Pipeline.arrRef spec2 1)) (row (V c (Pipeline.arrRef spec2 2)) 0)) := by
  show (cfg2.win 4).cut (grid2.coords t) ((dat2 (F := Ideal) V c).after 4 t) = _
  rw [after2_4, root_block]
  obtain ⟨e00, e01, e10, e11, e20, e21, e30, e31, e32, e41, e40, e50, e51⟩ := index_facts t
  funext j
  show Root (R := 2000) (iblk2 V c 0 t) (iblk2 V c 1 t) (row (iblk2 V c 2 t) 0) j
    = Root (R := 100000) (V c (Pipeline.arrRef spec2 0)) (V c (Pipeline.arrRef spec2 1)) (row (V c (Pipeline.arrRef spec2 2)) 0)
        (((cfg2.win 4).blk t).view.emb j)
  refine root_congr _ _ _ _ _ _ j _ ?_ ?_ ?_ ?_
  · funext k
    show V c (Pipeline.arrRef spec2 0) (((cfg2.win 0).blk t).view.emb (ix2 (j 0) k))
      = V c (Pipeline.arrRef spec2 0) (ix2 (((cfg2.win 4).blk t).view.emb j 0) k)
    refine congrArg _ (funext fun a => Fin.ext ?_)
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * k.val = k.val; omega
  · funext k n
    show V c (Pipeline.arrRef spec2 1) (((cfg2.win 1).blk t).view.emb (ix2 k n)) = V c (Pipeline.arrRef spec2 1) (ix2 k n)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * n.val = n.val; omega
  · funext n
    show V c (Pipeline.arrRef spec2 2) (((cfg2.win 2).blk t).view.emb (ix2 (0 : Fin 1) n))
      = V c (Pipeline.arrRef spec2 2) (ix2 (0 : Fin 1) n)
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * n.val = n.val; omega
  · show (j 1).val = win2_4.index t (1 : Fin 2) * 128 + 1 * (j 1).val
    omega

/-- What point t writes back to the relation array is block t of the side-by-side function of the arrays the launch
    found. -/
theorem rel_flushed (c : Dev nD) (t : Fin cfg2.N) :
    (dat2 (F := Ideal) V c).flushed 5 t = ((cfg2.win 5).blk t).view.read (Elt Ideal)
      (RelCat (R := 100000) (V c (Pipeline.arrRef spec2 0)) (V c (Pipeline.arrRef spec2 3))) := by
  show (cfg2.win 5).cut (grid2.coords t) ((dat2 (F := Ideal) V c).after 5 t) = _
  rw [after2_5, rel_block]
  obtain ⟨e00, e01, e10, e11, e20, e21, e30, e31, e32, e41, e40, e50, e51⟩ := index_facts t
  funext j
  show RelCat (R := 2000) (iblk2 V c 0 t) (iblk2 V c 3 t) j
    = RelCat (R := 100000) (V c (Pipeline.arrRef spec2 0)) (V c (Pipeline.arrRef spec2 3)) (((cfg2.win 5).blk t).view.emb j)
  refine relCat_congr _ _ _ _ j _ ?_ ?_ ?_
  · funext k
    show V c (Pipeline.arrRef spec2 0) (((cfg2.win 0).blk t).view.emb (ix2 (j 0) k))
      = V c (Pipeline.arrRef spec2 0) (ix2 (((cfg2.win 5).blk t).view.emb j 0) k)
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * k.val = k.val; omega
  · intro q
    funext k n
    show V c (Pipeline.arrRef spec2 3) (((cfg2.win 3).blk t).view.emb (ix3 q k n)) = V c (Pipeline.arrRef spec2 3) (ix3 q k n)
    refine congrArg _ (funext fun a => Fin.ext ?_)
    match a with
    | ⟨0, _⟩ => show win2_3.index t (0 : Fin 3) * 2 + 1 * q.val = q.val; omega
    | ⟨1, _⟩ => show win2_3.index t (1 : Fin 3) * 128 + 1 * k.val = k.val; omega
    | ⟨2, _⟩ => show win2_3.index t (2 : Fin 3) * 128 + 1 * n.val = n.val; omega
  · show (j 1).val = win2_5.index t (1 : Fin 2) * 256 + 1 * (j 1).val
    omega

/-! ## The arrays after the last point -/

/-- An index of the root array is in point t's block iff each coordinate is in the block's range on its axis. -/
theorem root_mem_blk (t : Fin cfg2.N) (i : S100000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole main_v65_0).slice (win2_4.rect t)).set ↔ _
  rw [View.set_slice_whole, Rect.mem_set_unit]
  exact Iff.rfl

/-- An index of the relation array is in point t's block iff each coordinate is in the block's range on its axis. -/
theorem rel_mem_blk (t : Fin cfg2.N) (i : S100000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v65_1).slice (win2_5.rect t)).set ↔ _
  rw [View.set_slice_whole, Rect.mem_set_unit]
  exact Iff.rfl

/-- THE ROOT ARRAY after the launch: every row of the activations times the root matrix, plus the bias. -/
theorem root_final2 (c : Dev nD) :
    (dat2 (F := Ideal) V c).arrAt 4 cfg2.N
      = Root (R := 100000) (V c (Pipeline.arrRef spec2 0)) (V c (Pipeline.arrRef spec2 1)) (row (V c (Pipeline.arrRef spec2 2)) 0) :=
  (dat2 (F := Ideal) V c).arrAt_eq_of_cover 4 _ (fun t _ => root_flushed V c t) fun i => by
    have hi0 : (i 0).val < 100000 := (i 0).isLt
    have hi1 : (i 1).val < 128 := (i 1).isLt
    obtain ⟨t, ht⟩ := root_onto ⟨(i 0).val / 2000, by omega⟩
    have q0 : win2_4.index t (0 : Fin 2) = (i 0).val / 2000 := congrFun ht 0
    have q1 : win2_4.index t (1 : Fin 2) = 0 := congrFun ht 1
    refine ⟨t, flush2_4 t, ?_⟩
    rw [root_mem_blk]
    intro a
    match a with
    | ⟨0, _⟩ => show win2_4.index t (0 : Fin 2) * 2000 ≤ (i 0).val ∧ (i 0).val < win2_4.index t (0 : Fin 2) * 2000 + 2000; omega
    | ⟨1, _⟩ => show win2_4.index t (1 : Fin 2) * 128 ≤ (i 1).val ∧ (i 1).val < win2_4.index t (1 : Fin 2) * 128 + 128; omega

/-- THE RELATION ARRAY after the launch: every row of the activations times each relation's matrix, side by side. -/
theorem rel_final2 (c : Dev nD) :
    (dat2 (F := Ideal) V c).arrAt 5 cfg2.N
      = RelCat (R := 100000) (V c (Pipeline.arrRef spec2 0)) (V c (Pipeline.arrRef spec2 3)) :=
  (dat2 (F := Ideal) V c).arrAt_eq_of_cover 5 _ (fun t _ => rel_flushed V c t) fun i => by
    have hi0 : (i 0).val < 100000 := (i 0).isLt
    have hi1 : (i 1).val < 256 := (i 1).isLt
    obtain ⟨t, ht⟩ := rel_onto ⟨(i 0).val / 2000, by omega⟩
    have q0 : win2_5.index t (0 : Fin 2) = (i 0).val / 2000 := congrFun ht 0
    have q1 : win2_5.index t (1 : Fin 2) = 0 := congrFun ht 1
    refine ⟨t, flush2_5 t, ?_⟩
    rw [rel_mem_blk]
    intro a
    match a with
    | ⟨0, _⟩ => show win2_5.index t (0 : Fin 2) * 2000 ≤ (i 0).val ∧ (i 0).val < win2_5.index t (0 : Fin 2) * 2000 + 2000; omega
    | ⟨1, _⟩ => show win2_5.index t (1 : Fin 2) * 256 ≤ (i 1).val ∧ (i 1).val < win2_5.index t (1 : Fin 2) * 256 + 256; omega

end Cert.KernelIdeal.RelValue2

end
-- ==== Proof.Stages2.lean ====
/-
  The first convolution's result and the second relation launch read.

  The host stretch after the first relation launch turns its two outputs into the first convolution's result
  (HostGlue1) and recasts the bias again; the second relation launch then reads that result exactly as the first read
  the encoder's output.
-/
import proofs.«109633_j5531917877297_1_alg».proof.Proof.Stages1
import proofs.«109633_j5531917877297_1_alg».proof.Proof.HostGlue1
import proofs.«109633_j5531917877297_1_alg».proof.Proof.RelBlocks2
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Rgcn Cert.DenseRows Cert.ReferenceIdeal.Read Cert.ReferenceIdeal.RefDense Cert.KernelIdeal.RelSplit

variable (m : (ℓ : Loc nD τ sig) → Buf (Elt Ideal) ℓ) (ρ : Dev nD → PrngReg)

/-- The first convolution's result: the reference's stage. -/
theorem W5_main_v63 (c : Dev nD) :
    W5 m ρ c (Proc.devRef .tc main_v63) = val_main_v81 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  conv1_result m ρ c _ _ _ _ _ _ _ _ _ _ (W4_main_v8_0 m ρ c) (W4_main_v8_1 m ρ c) (W4_main_v1 m ρ c) (W4_main_v3 m ρ c)
    (W4_main_arg5 m ρ c)

set_option maxHeartbeats 4000000 in
/-- The convolution's bias, recast again before the second relation launch. -/
theorem W5_main_v64 (c : Dev nD) : W5 m ρ c (Proc.devRef .tc main_v64) = shapeCast S1x128 (m ((c : Thread nD τ).loc main_arg12)) shapeCasts_S128_S1x128 :=
  (by show StableHlo.after hostOps2 (W4 m ρ c) (Proc.devRef .tc main_v64) = _; after_results_simp; try rfl :
    W5 m ρ c (Proc.devRef .tc main_v64) = shapeCast S1x128 (W4 m ρ c (Proc.devRef .tc main_arg12)) shapeCasts_S128_S1x128).trans
    (by rw [W4_main_arg12])

/-- The second relation launch's root output: the reference's second root stage. -/
theorem W6_main_v65_0 (c : Dev nD) :
    W6 m ρ c (Proc.devRef .tc main_v65_0) = val_main_v85 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W6_arr m ρ c 4).trans (Cert.KernelIdeal.RelValue2.root_final2 (V5 m ρ) c)).trans ?_
  show Root (R := 100000) (W5 m ρ c (Proc.devRef .tc main_v63)) (W5 m ρ c (Proc.devRef .tc main_arg11))
      (row (W5 m ρ c (Proc.devRef .tc main_v64)) 0) = _
  rw [W5_main_v63, W5_main_arg11, W5_main_v64, row_cast_vec128]
  exact (ref_root _ _ _).symm

/-- The second relation launch's second output: the two relations' products of the first convolution's result. -/
theorem W6_main_v65_1 (c : Dev nD) :
    W6 m ρ c (Proc.devRef .tc main_v65_1) = RelCat (R := 100000) (val_main_v81 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg10)) := by
  refine ((W6_arr m ρ c 5).trans (Cert.KernelIdeal.RelValue2.rel_final2 (V5 m ρ) c)).trans ?_
  show RelCat (R := 100000) (W5 m ρ c (Proc.devRef .tc main_v63)) (W5 m ρ c (Proc.devRef .tc main_arg10)) = _
  rw [W5_main_v63, W5_main_arg10]

end Cert.KernelIdeal.Value

end
-- ==== Proof.HostGlue2.lean ====
/-
  The host stretch between two launches of the relation kernel: the edge gather, the masked scatter-add and the degree
  normalisation of one graph convolution.

  The stretch reads the launch's two outputs — the root term and the two relations' products side by side — together
  with the two rows of the edge list and the edge types. Recast to [rows, 2, 128], sliced at a relation and recast
  back, the side-by-side array is that relation's product (RelSplit), which is the reference's own matrix product
  (RefDense); every other operation of the stretch is, operation for operation, the reference's. So if the launch's
  outputs are the reference's stages, the stretch's result is the reference's next stage.
-/
import proofs.«109633_j5531917877297_1_alg».proof.Proof.Gen.KernelIdeal.Frame
import proofs.«109633_j5531917877297_1_alg».proof.Proof.Gen.ReferenceIdeal.Read
import proofs.«109633_j5531917877297_1_alg».proof.Proof.RefDense
import proofs.«109633_j5531917877297_1_alg».proof.Proof.RelSplit
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Rgcn Cert.DenseRows

variable (m : (ℓ : Loc nD τ sig) → Buf (Elt Ideal) ℓ) (ρ : Dev nD → PrngReg)

set_option maxHeartbeats 4000000 in
/-- The convolution's result from the launch's two outputs, the edge rows and the edge types. -/
theorem conv2_result (c : Dev nD) (x0 : FVec Ideal S100000x768 .f32) (x4 : IVec S2x1600000 32) (x5 : IVec S1600000 32) (x6 : FVec Ideal S768x128 .f32) (x7 : FVec Ideal S128 .f32) (x8 : FVec Ideal S128x128 .f32) (x9 : FVec Ideal S128 .f32) (x10 : FVec Ideal S2x128x128 .f32) (x11 : FVec Ideal S128x128 .f32) (x12 : FVec Ideal S128 .f32)
    (hroot : W6 m ρ c (Proc.devRef .tc main_v65_0) = Cert.ReferenceIdeal.Read.val_main_v85 (F := Ideal) x0 x4 x5 x6 x7 x8 x9 x10 x11 x12)
    (hcat : W6 m ρ c (Proc.devRef .tc main_v65_1) = RelCat (R := 100000) (Cert.ReferenceIdeal.Read.val_main_v81 (F := Ideal) x0 x4 x5 x6 x7 x8 x9 x10 x11 x12) x10)
    (hsrc : W6 m ρ c (Proc.devRef .tc main_v1) = Cert.ReferenceIdeal.Read.val_main_v1 (F := Ideal) x4)
    (hdst : W6 m ρ c (Proc.devRef .tc main_v3) = Cert.ReferenceIdeal.Read.val_main_v3 (F := Ideal) x4)
    (hty : W6 m ρ c (Proc.devRef .tc main_arg5) = x5) :
    W7 m ρ c (Proc.devRef .tc main_v120) = Cert.ReferenceIdeal.Read.val_main_v141 (F := Ideal) x0 x4 x5 x6 x7 x8 x9 x10 x11 x12 := by
  show StableHlo.after hostOps3 (W6 m ρ c) (Proc.devRef .tc main_v120) = _
  after_results_simp
  rw [hroot, hcat, hsrc, hdst, hty]
  have e0 : (fun i => shapeCast main_v71.ty.shape (extractStridedSlice S100000x1x128 ![0, 0, 0]
        (fun i => shapeCast main_v66.ty.shape (RelCat (R := 100000) (Cert.ReferenceIdeal.Read.val_main_v81 (F := Ideal) x0 x4 x5 x6 x7 x8 x9 x10 x11 x12) x10) shapeCasts_S100000x256_S100000x2x128 i)
        slices_S100000x2x128_S100000x1x128_0_0_0) shapeCasts_S100000x1x128_S100000x128 i)
      = Cert.ReferenceIdeal.Read.val_main_v91 (F := Ideal) x0 x4 x5 x6 x7 x8 x9 x10 x11 x12 :=
    (Cert.KernelIdeal.RelSplit.relcat_slice0 _ x10 _ _ _).trans (Cert.ReferenceIdeal.RefDense.ref_rel0 _ x10).symm
  have e1 : (fun i => shapeCast main_v98.ty.shape (extractStridedSlice S100000x1x128 ![0, 1, 0]
        (fun i => shapeCast main_v66.ty.shape (RelCat (R := 100000) (Cert.ReferenceIdeal.Read.val_main_v81 (F := Ideal) x0 x4 x5 x6 x7 x8 x9 x10 x11 x12) x10) shapeCasts_S100000x256_S100000x2x128 i)
        slices_S100000x2x128_S100000x1x128_0_1_0) shapeCasts_S100000x1x128_S100000x128 i)
      = Cert.ReferenceIdeal.Read.val_main_v119 (F := Ideal) x0 x4 x5 x6 x7 x8 x9 x10 x11 x12 :=
    (Cert.KernelIdeal.RelSplit.relcat_slice1 _ x10 _ _ _).trans (Cert.ReferenceIdeal.RefDense.ref_rel1 _ x10).symm
  rw [e0, e1]
  rfl

end Cert.KernelIdeal.Value

end
-- ==== Proof.OutBlocks.lean ====
/-
  The output head on the grid: what its fifty row blocks leave in the [100000, 2] output array.

  The head maps row r of the activations x to   leaky (x_r · W1 + b1) · W2 + b2,   a function of that row alone
  (`Out` of the specification, at any number of rows). The kernel runs it on blocks of 2000 rows: grid point t
  reads rows 2000·t … 2000·t + 1999 of x and the whole of W1, b1, W2, b2, and writes the same rows of the output.

    out_body    on one block: the payload is `Out` at 2000 rows — two dense layers read row by row (a matrix product
                accumulated into zeros plus a one-row bias spread over the rows is `affine` of the row), the rectifier
                between them entry by entry; a change of float format and a shape cast to the same shape change nothing
                on the extended reals.
    out_final   on the array: point t writes back block t of `Out` at 100000 rows, because row r of its input block is
                row 2000·t + r of x and every weight and bias block is the whole array; row r of the output lies in the
                block of point r / 2000, so the fifty blocks cover the array and it ends holding `Out` of the arrays
                the region finds.
-/
import Idealize.ShloMosaic.Lib.Pipeline.Value
import Idealize.ShloMosaic.Lib.ValueIdx
import proofs.«109633_j5531917877297_1_alg».proof.Proof.Gen.KernelIdeal.Frame
import proofs.«109633_j5531917877297_1_alg».proof.Proof.Spec
import proofs.«109633_j5531917877297_1_alg».proof.Proof.LibBlockRows

set_option maxRecDepth 16384

noncomputable section

namespace Cert.KernelIdeal.OutValue

open Cert.KernelIdeal Cert.KernelIdeal.Gen Idealize.ShloMosaic Idealize.ShloMosaic.TcCoe Idealize.SL.Sem Idealize.ShloMosaic.ValueIdx Cert.DenseRows Cert.Rgcn
open Idealize.ShloMosaic.Pipeline (Dat Cfg Window)

/-- Row `r` of the rectifier applied to a block, then a change of float format: the rectifier in every entry of row `r`. -/
theorem row_leaky {R N : ℕ} (A : FVec Ideal ⟨2, ![R, N]⟩ .f32) (h : FTy.bf16.bits < FTy.f32.bits) (r : Fin R) :
    row (truncf .bf16
          (select (cmpf .oge A (broadcast ⟨2, ![R, N]⟩ (FloatOps.ofBits (F := Ideal) .f32 0x00000000#32))) A
            (mulf (broadcast ⟨2, ![R, N]⟩ (FloatOps.ofBits (F := Ideal) .f32 0x3C23D70A#32)) A)) h) r
      = leakyRow (row A r) := rfl

/-- ON ONE BLOCK of 2000 rows the kernel's payload is the output head of the specification: row by row, the first
    dense layer, the rectifier, the second dense layer. -/
theorem out_body (x0 : Vec Ideal S2000x128 .f32) (x1 : Vec Ideal S128x128 .f32) (x2 : Vec Ideal S1x128 .f32)
    (x3 : Vec Ideal S128x2 .f32) (x4 : Vec Ideal S1x2 .f32) :
    k3_pay1 (F := Ideal) x0 x1 x2 x3 x4 = Out (R := 2000) x0 x1 (row x2 0) x3 (row x4 0) := by
  refine ext_rows _ _ fun r => ?_
  unfold k3_pay1
  refine (Cert.LibBlockRows.row_matmul_rowbias _ rfl none _ _ _ _ r).trans ?_
  rw [shapeCast_self x0, shapeCast_self x2, shapeCast_self x4]
  rw [row_leaky, Cert.LibBlockRows.row_matmul_rowbias dot_S2000x128_S128x128_S2000x128_1_0_0_1_n_n rfl none _ _ _ _ r]
  rfl

variable (V : (c : Dev nD) → (b : Ref sig .tc) → Buf (Elt Ideal) ((c : Thread nD τ).loc b))

/-! ## The whole output array -/

theorem zeros2 : (![0, 0] : Fin 2 → Nat) = fun _ => 0 := funext fun a => by fin_cases a <;> rfl

/-- The whole output array as the specification gives it from the arrays the region finds. -/
abbrev outArr (c : Dev nD) : S100000x2.Idx → EReal :=
  Out (R := 100000) (V c (Pipeline.arrRef spec3 0)) (V c (Pipeline.arrRef spec3 1)) (row (V c (Pipeline.arrRef spec3 2)) 0)
    (V c (Pipeline.arrRef spec3 3)) (row (V c (Pipeline.arrRef spec3 4)) 0)

/-- The output head reads row `i 0` of its input alone: two arrays whose rows there agree give the same entry. -/
theorem out_congr {R R' : ℕ} (x : (⟨2, ![R, 128]⟩ : Shape).Idx → EReal) (x' : (⟨2, ![R', 128]⟩ : Shape).Idx → EReal)
    (W1 : (⟨2, ![128, 128]⟩ : Shape).Idx → EReal) (b1 : Fin 128 → EReal) (W2 : (⟨2, ![128, 2]⟩ : Shape).Idx → EReal)
    (b2 : Fin 2 → EReal) (i : (⟨2, ![R, 2]⟩ : Shape).Idx) (i' : (⟨2, ![R', 2]⟩ : Shape).Idx)
    (hrow : row x (i 0) = row x' (i' 0)) (hn : i 1 = i' 1) :
    Out x W1 b1 W2 b2 i = Out x' W1 b1 W2 b2 i' := by
  show outRow (row x (i 0)) _ _ _ _ (i 1) = outRow (row x' (i' 0)) _ _ _ _ (i' 1)
  rw [hrow, hn]

/-- The block index maps, decided over the fifty grid points: the activations' row block moves with the output's,
    every weight and bias window stays at the origin, and the output's row block index is below fifty. -/
theorem idx_facts : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 49 :=
  (by decide +kernel : ∀ t : Fin grid3.N, _)

/-- Every row block of the output is some grid point's. -/
theorem idx_onto : ∀ q : Fin 50, ∃ t : Fin cfg3.N, win3_5.index t = ![q.val, 0] :=
  (by decide +kernel : ∀ q : Fin 50, ∃ t : Fin grid3.N, win3_5.index t = ![q.val, 0])

/-- Row `r` of the activations' block at point `t` is row `2000·(block index) + r` of the activations. -/
theorem blk_x (c : Dev nD) (t : Fin cfg3.N) (r : Fin 2000) (q : Fin 100000)
    (hq : q.val = win3_5.index t (0 : Fin 2) * 2000 + r.val) :
    row (iblk3 V c 0 t : Vec Ideal S2000x128 .f32) r = row (V c (Pipeline.arrRef spec3 0) : Vec Ideal S100000x128 .f32) q := by
  obtain ⟨e0, e1, -⟩ := idx_facts t
  funext k
  show (iblk3 V c 0 t : Vec Ideal S2000x128 .f32) (ix2 r k) = _
  unfold iblk3
  rw [View.read_apply]
  show V c (Pipeline.arrRef spec3 0) _ = V c (Pipeline.arrRef spec3 0) _
  congr 1
  funext a; apply Fin.ext
  match a with
  | ⟨0, _⟩ => show win3_0.index t (0 : Fin 2) * 2000 + 1 * r.val = q.val; omega
  | ⟨1, _⟩ => show win3_0.index t (1 : Fin 2) * 128 + 1 * k.val = k.val; omega

/-- The first weight window's block is the whole weight matrix. -/
theorem blk_W1 (c : Dev nD) (t : Fin cfg3.N) :
    (iblk3 V c 1 t : Vec Ideal S128x128 .f32) = V c (Pipeline.arrRef spec3 1) := by
  obtain ⟨-, -, e0, e1, -⟩ := idx_facts t
  funext x
  unfold iblk3
  rw [View.read_apply]
  show V c (Pipeline.arrRef spec3 1) _ = V c (Pipeline.arrRef spec3 1) _
  congr 1
  funext a; apply Fin.ext
  match a with
  | ⟨0, _⟩ => show win3_1.index t (0 : Fin 2) * 128 + 1 * (x 0).val = (x 0).val; omega
  | ⟨1, _⟩ => show win3_1.index t (1 : Fin 2) * 128 + 1 * (x 1).val = (x 1).val; omega

/-- The first bias window's block is the whole one-row bias. -/
theorem blk_b1 (c : Dev nD) (t : Fin cfg3.N) :
    (iblk3 V c 2 t : Vec Ideal S1x128 .f32) = V c (Pipeline.arrRef spec3 2) := by
  obtain ⟨-, -, -, -, e0, e1, -⟩ := idx_facts t
  funext x
  unfold iblk3
  rw [View.read_apply]
  show V c (Pipeline.arrRef spec3 2) _ = V c (Pipeline.arrRef spec3 2) _
  congr 1
  funext a; apply Fin.ext
  match a with
  | ⟨0, _⟩ => show win3_2.index t (0 : Fin 2) * 1 + 1 * (x 0).val = (x 0).val; omega
  | ⟨1, _⟩ => show win3_2.index t (1 : Fin 2) * 128 + 1 * (x 1).val = (x 1).val; omega

/-- The second weight window's block is the whole weight matrix. -/
theorem blk_W2 (c : Dev nD) (t : Fin cfg3.N) :
    (iblk3 V c 3 t : Vec Ideal S128x2 .f32) = V c (Pipeline.arrRef spec3 3) := by
  obtain ⟨-, -, -, -, -, -, e0, e1, -⟩ := idx_facts t
  funext x
  unfold iblk3
  rw [View.read_apply]
  show V c (Pipeline.arrRef spec3 3) _ = V c (Pipeline.arrRef spec3 3) _
  congr 1
  funext a; apply Fin.ext
  match a with
  | ⟨0, _⟩ => show win3_3.index t (0 : Fin 2) * 128 + 1 * (x 0).val = (x 0).val; omega
  | ⟨1, _⟩ => show win3_3.index t (1 : Fin 2) * 2 + 1 * (x 1).val = (x 1).val; omega

/-- The second bias window's block is the whole one-row bias. -/
theorem blk_b2 (c : Dev nD) (t : Fin cfg3.N) :
    (iblk3 V c 4 t : Vec Ideal S1x2 .f32) = V c (Pipeline.arrRef spec3 4) := by
  obtain ⟨-, -, -, -, -, -, -, -, e0, e1, -⟩ := idx_facts t
  funext x
  unfold iblk3
  rw [View.read_apply]
  show V c (Pipeline.arrRef spec3 4) _ = V c (Pipeline.arrRef spec3 4) _
  congr 1
  funext a; apply Fin.ext
  match a with
  | ⟨0, _⟩ => show win3_4.index t (0 : Fin 2) * 1 + 1 * (x 0).val = (x 0).val; omega
  | ⟨1, _⟩ => show win3_4.index t (1 : Fin 2) * 2 + 1 * (x 1).val = (x 1).val; omega

/-- What grid point `t` writes back is its row block of the whole output array. -/
theorem out_flushed (c : Dev nD) (t : Fin cfg3.N) :
    (dat3 (F := Ideal) V c).flushed 5 t = ((cfg3.win 5).blk t).view.read (Elt Ideal) (outArr V c) := by
  show (cfg3.win 5).cut (grid3.coords t) ((dat3 V c).after 5 t) = _
  rw [after3_5]
  unfold out3_5
  rw [View.canon_unit_zero zeros2]
  simp only [View.ld_unit_zero (S := S2000x128) zeros2, View.ld_unit_zero (S := S128x128) zeros2,
    View.ld_unit_zero (S := S1x128) zeros2, View.ld_unit_zero (S := S128x2) zeros2, View.ld_unit_zero (S := S1x2) zeros2]
  rw [out_body, blk_W1 V c t, blk_b1 V c t, blk_W2 V c t, blk_b2 V c t]
  obtain ⟨-, -, -, -, -, -, -, -, -, -, e1, -⟩ := idx_facts t
  funext j
  rw [View.read_apply]
  refine out_congr _ _ _ _ _ _ ((cfg3.win 5).xinj (grid3.coords t) j) (((cfg3.win 5).blk t).view.emb j) ?_ ?_
  · refine blk_x V c t _ _ ?_
    show win3_5.index t (0 : Fin 2) * 2000 + 1 * (j 0).val = win3_5.index t (0 : Fin 2) * 2000 + (j 0).val
    omega
  · apply Fin.ext
    show (j 1).val = win3_5.index t (1 : Fin 2) * 2 + 1 * (j 1).val
    omega

/-- An index of the output array is in point `t`'s block iff each coordinate is in the block's range on its axis. -/
theorem mem_blk (t : Fin cfg3.N) (i : S100000x2.Idx) :
    i ∈ ((cfg3.win 5).blk t).view.set ↔
      ∀ a : Fin 2, win3_5.index t a * S2000x2.size a ≤ (i a).val ∧ (i a).val < win3_5.index t a * S2000x2.size a + S2000x2.size a := by
  show i ∈ ((View.whole main_v123).slice (win3_5.rect t)).set ↔ _
  rw [View.set_slice_whole, Rect.mem_set_unit]
  exact Iff.rfl

/-- Row `r` of the output array lies in the block of grid point `r / 2000`: the fifty row blocks cover the array. -/
theorem out_cover (i : S100000x2.Idx) :
    ∃ t : Fin cfg3.N, (cfg3.win 5).flush t = true ∧ i ∈ ((cfg3.win 5).blk t).view.set := by
  have hi0 : (i 0).val < 100000 := (i 0).isLt
  have hi1 : (i 1).val < 2 := (i 1).isLt
  obtain ⟨t, ht⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 2 ≤ (i 1).val ∧ (i 1).val < win3_5.index t (1 : Fin 2) * 2 + 2
    omega

/-- THE ARRAY after the fifty grid points: the output head of the specification, at all 100000 rows, of the arrays the
    region finds. -/
theorem out_final (c : Dev nD) :
    (dat3 (F := Ideal) V c).arrAt 5 cfg3.N
      = Out (R := 100000) (V c (Pipeline.arrRef spec3 0)) (V c (Pipeline.arrRef spec3 1)) (row (V c (Pipeline.arrRef spec3 2)) 0)
          (V c (Pipeline.arrRef spec3 3)) (row (V c (Pipeline.arrRef spec3 4)) 0) :=
  (dat3 (F := Ideal) V c).arrAt_eq_of_cover 5 (outArr V c) (fun t _ => out_flushed V c t) out_cover

end Cert.KernelIdeal.OutValue

end
-- ==== Proof.KernelValue.lean ====
/-
  The kernel program's result array is the reference program's last stage of the launch contents of the arguments.

  The host stretch after the second relation launch gives the second convolution's result (HostGlue2) and recasts the
  output head's two biases; the last launch's output array is the output head of that result (the blocks-to-array
  module), which is the reference's last stage (RefDense).
-/
import proofs.«109633_j5531917877297_1_alg».proof.Proof.Stages2
import proofs.«109633_j5531917877297_1_alg».proof.Proof.HostGlue2
import proofs.«109633_j5531917877297_1_alg».proof.Proof.OutBlocks
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Rgcn Cert.DenseRows Cert.ReferenceIdeal.Read Cert.ReferenceIdeal.RefDense Cert.KernelIdeal.RelSplit

variable (m : (ℓ : Loc nD τ sig) → Buf (Elt Ideal) ℓ) (ρ : Dev nD → PrngReg)

/-- The second convolution's result: the reference's stage. -/
theorem W7_main_v120 (c : Dev nD) :
    W7 m ρ c (Proc.devRef .tc main_v120) = val_main_v141 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  conv2_result m ρ c _ _ _ _ _ _ _ _ _ _ (W6_main_v65_0 m ρ c) (W6_main_v65_1 m ρ c) (W6_main_v1 m ρ c) (W6_main_v3 m ρ c)
    (W6_main_arg5 m ρ c)

set_option maxHeartbeats 4000000 in
/-- The output head's first bias, recast as a one-row matrix. -/
theorem W7_main_v121 (c : Dev nD) : W7 m ρ c (Proc.devRef .tc main_v121) = shapeCast S1x128 (m ((c : Thread nD τ).loc main_arg14)) shapeCasts_S128_S1x128 :=
  (by show StableHlo.after hostOps3 (W6 m ρ c) (Proc.devRef .tc main_v121) = _; after_results_simp; try rfl :
    W7 m ρ c (Proc.devRef .tc main_v121) = shapeCast S1x128 (W6 m ρ c (Proc.devRef .tc main_arg14)) shapeCasts_S128_S1x128).trans
    (by rw [W6_main_arg14])

set_option maxHeartbeats 4000000 in
/-- The output head's second bias, recast as a one-row matrix. -/
theorem W7_main_v122 (c : Dev nD) : W7 m ρ c (Proc.devRef .tc main_v122) = shapeCast S1x2 (m ((c : Thread nD τ).loc main_arg16)) shapeCasts_S2_S1x2 :=
  (by show StableHlo.after hostOps3 (W6 m ρ c) (Proc.devRef .tc main_v122) = _; after_results_simp; try rfl :
    W7 m ρ c (Proc.devRef .tc main_v122) = shapeCast S1x2 (W6 m ρ c (Proc.devRef .tc main_arg16)) shapeCasts_S2_S1x2).trans
    (by rw [W6_main_arg16])

/-- The kernel program's result array, at the last boundary of its run, is the reference program's last stage of the
    launch contents of the arguments. -/
theorem kernel_result (c : Dev nD) :
    W8 m ρ c (Proc.devRef .tc main_v123)
      = Cert.ReferenceIdeal.Read.val_main_v154 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine ((W8_arr m ρ c 5).trans (Cert.KernelIdeal.OutValue.out_final (V7 m ρ) c)).trans ?_
  show Out (R := 100000) (W7 m ρ c (Proc.devRef .tc main_v120)) (W7 m ρ c (Proc.devRef .tc main_arg13))
      (row (W7 m ρ c (Proc.devRef .tc main_v121)) 0) (W7 m ρ c (Proc.devRef .tc main_arg15))
      (row (W7 m ρ c (Proc.devRef .tc main_v122)) 0) = _
  rw [W7_main_v120, W7_main_arg13, W7_main_v121, W7_main_arg15, W7_main_v122, row_cast_vec128, row_cast_vec2]
  exact (ref_out _ _ _ _ _).symm

end Cert.KernelIdeal.Value

end
-- ==== Proof.lean ====
/-
  The kernel program is four kernel launches — the encoder, the two relation transforms and the output head — among
  stretches of host operations that gather the transformed rows along the edges, keep the edges of one relation, add
  them up at their target nodes and divide by the number of such edges (at least one); the reference program is the
  same network written in host operations alone.
  On the extended reals every dense stage of either program is one function applied row by row (a row times a weight
  matrix plus a bias, and the leaky rectifier entry by entry): a block of rows and the whole array are instances of the
  same function, and the host stretches of the two programs are the same operations. So from argument arrays that
  agree both programs end with the same result array, the reference's last stage of the arguments, and each
  program's arguments end as launched. No finiteness of the inputs is used.
-/
import proofs.«109633_j5531917877297_1_alg».proof.Defs
import proofs.«109633_j5531917877297_1_alg».proof.Proof.Gen.Kernel
import proofs.«109633_j5531917877297_1_alg».proof.Proof.Gen.Kernel.Skeleton
import proofs.«109633_j5531917877297_1_alg».proof.Proof.Gen.Kernel.Launch
import proofs.«109633_j5531917877297_1_alg».proof.Proof.Gen.Kernel.Points
import proofs.«109633_j5531917877297_1_alg».proof.Proof.Gen.Kernel.Frame
import proofs.«109633_j5531917877297_1_alg».proof.Proof.Gen.KernelIdeal
import proofs.«109633_j5531917877297_1_alg».proof.Proof.Gen.KernelIdeal.Skeleton
import proofs.«109633_j5531917877297_1_alg».proof.Proof.Gen.KernelIdeal.Launch
import proofs.«109633_j5531917877297_1_alg».proof.Proof.Gen.KernelIdeal.Points
import proofs.«109633_j5531917877297_1_alg».proof.Proof.Gen.KernelIdeal.Frame
import proofs.«109633_j5531917877297_1_alg».proof.Proof.Gen.ReferenceIdeal
import proofs.«109633_j5531917877297_1_alg».proof.Proof.Gen.Pre_finite_inputs
import Idealize.ShloMosaic.Adequacy
import Idealize.ShloMosaic.Init
import proofs.«109633_j5531917877297_1_alg».proof.Proof.Gen.ReferenceIdeal.Run
import proofs.«109633_j5531917877297_1_alg».proof.Proof.Gen.ReferenceIdeal.Read
import proofs.«109633_j5531917877297_1_alg».proof.Proof.KernelRun
import proofs.«109633_j5531917877297_1_alg».proof.Proof.KernelValue

noncomputable section

namespace Cert.Proof

open Idealize.ShloMosaic Idealize.ShloMosaic.TcCoe Idealize.SL.Sem

/-- The kernel program runs and leaves its arguments as launched. -/
theorem frame_p : Cert.frame_Kernel := fun m ρ _ => Cert.Kernel.Gen.frame m ρ

/-- The kernel program on the extended reals runs and leaves its arguments as launched. -/
theorem frame_pi : Cert.frame_KernelIdeal := fun m ρ _ => Cert.KernelIdeal.Gen.frame m ρ

/-- The reference program on the extended reals runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- On the extended reals, from arguments that agree, the kernel program's result array and the reference program's
    are one array: the reference's last stage of the arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.Value.kernel_result m ρ c), (h c).2⟩)
      (Cert.KernelIdeal.Value.run_boundary (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v154_eq, (hagree c).1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2.1,
    (hagree c).2.2.2.2.2.2.2.2.2.2.2.2.2.2.2.1,
    (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
